-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x8x768 : Shape := ⟨4, ![8, 512, 8, 768]⟩
abbrev S8x512 : Shape := ⟨2, ![8, 512]⟩
abbrev S768x1024 : Shape := ⟨2, ![768, 1024]⟩
abbrev S1024 : Shape := ⟨1, ![1024]⟩
abbrev S_ : Shape := ⟨0, ![]⟩

class Facts : Prop where
  bcast_S_S8x512x8x768 : S_.BroadcastsInDim S8x512x8x768 (![] : Fin 0 → Fin S8x512x8x768.rank)
  reducesTo_S8x512x8x768_S_d0_1_2_3 : S8x512x8x768.ReducesTo [0, 1, 2, 3] S_
  h_S_ : 0 < S_.numel
  bcast_S_S768x1024 : S_.BroadcastsInDim S768x1024 (![] : Fin 0 → Fin S768x1024.rank)
  reducesTo_S768x1024_S_d0_1 : S768x1024.ReducesTo [0, 1] S_
  bcast_S_S1024 : S_.BroadcastsInDim S1024 (![] : Fin 0 → Fin S1024.rank)
  reducesTo_S1024_S_d0 : S1024.ReducesTo [0] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg1 : IVec S8x512 32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_c_8 : IVec S_ 32 := constantI S_ 32 8#32
  let main_v24 : IVec S8x512 32 := broadcastInDim S8x512 ![] bcast_S_S8x512 main_c_8
  let main_v25 : IVec S8x512 1 := cmpi .sle main_arg1 main_v24
  let main_c_9 : IVec S_ 1 := constantI S_ 1 1#1
  let main_v26 : IVec S_ 1 := (fun x v => Host.reduce IntOp.andi x v reducesTo_S8x512_S_d0_1 h_S_) main_v25 main_c_9
  let main_v27 : IVec S_ 1 := andi main_v23 main_v26
  main_v27

def fn {F : FTy → Type} [FloatOps F] (main_arg0 : FVec F S8x512x8x768 .f32) (main_arg1 : IVec S8x512 32) (main_arg2 : FVec F S768x1024 .f32) (main_arg3 : FVec F S1024 .f32) (main_arg4 : FVec F S1024 .f32) (main_arg5 : FVec F S1024 .f32) : IVec S_ 1 :=
  let main_v0 : FVec F S8x512x8x768 .f32 := Host.absf main_arg0
  let main_cst : FVec F S_ .f32 := constant S_ .f32 0x7F800000#32
  let main_v1 : FVec F S8x512x8x768 .f32 := broadcastInDim S8x512x8x768 ![] bcast_S_S8x512x8x768 main_cst
  let main_v2 : IVec S8x512x8x768 1 := cmpf .olt main_v0 main_v1
  let main_c : IVec S_ 1 := constantI S_ 1 1#1
  let main_v3 : IVec S_ 1 := (fun x v => Host.reduce IntOp.andi x v reducesTo_S8x512x8x768_S_d0_1_2_3 h_S_) main_v2 main_c
  let main_v4 : FVec F S768x1024 .f32 := Host.absf main_arg2
  let main_cst_0 : FVec F S_ .f32 := constant S_ .f32 0x7F800000#32
  let main_v5 : FVec F S768x1024 .f32 := broadcastInDim S768x1024 ![] bcast_S_S768x1024 main_cst_0
  let main_v6 : IVec S768x1024 1 := cmpf .olt main_v4 main_v5
  let main_c_1 : IVec S_ 1 := constantI S_ 1 1#1
  let main_v7 : IVec S_ 1 := (fun x v => Host.reduce IntOp.andi x v reducesTo_S768x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg5 main_v13 main_v16
-- ==== Kernel.lean ====
abbrev S8x512x8x768 : Shape := ⟨4, ![8, 512, 8, 768]⟩
abbrev S8x512 : Shape := ⟨2, ![8, 512]⟩
abbrev S768x1024 : Shape := ⟨2, ![768, 1024]⟩
abbrev S1024 : Shape := ⟨1, ![1024]⟩
abbrev S4096x8x768 : Shape := ⟨3, ![4096, 8, 768]⟩
abbrev S4096x1 : Shape := ⟨2, ![4096, 1]⟩
abbrev S1x1024 : Shape := ⟨2, ![1, 1024]⟩
abbrev S4096x1024 : Shape := ⟨2, ![4096, 1024]⟩
abbrev S256x8x768 : Shape := ⟨3, ![256, 8, 768]⟩
abbrev S256x1 : Shape := ⟨2, ![256, 1]⟩
abbrev S256x1024 : Shape := ⟨2, ![256, 1024]⟩
abbrev S256x768 : Shape := ⟨2, ![256, 768]⟩
abbrev S256x1x768 : Shape := ⟨3, ![256, 1, 768]⟩
abbrev S256 : Shape := ⟨1, ![256]⟩
abbrev S8x512x1024 : Shape := ⟨3, ![8, 512, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8x512x8x768, .f32⟩
  | .hbm, ⟨1, _⟩ => ⟨S8x512, .i32⟩
  | .hbm, ⟨2, _⟩ => ⟨S768x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x8x768, .f32⟩
  | .hbm, ⟨7, _⟩ => ⟨S4096x1, .i32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S8x512x1024, .f32⟩
  | .local _ .vmem, ⟨0, _⟩ => ⟨S256x8x768, .f32⟩
  | .local _ .vmem, ⟨1, _⟩ => ⟨S256x8x768, .f32⟩
  | .local _ .vmem, ⟨2, _⟩ => ⟨S256x1, .i32⟩
  | .local _ .vmem, ⟨3, _⟩ => ⟨S256x1, .i32⟩
  | .local _ .vmem, ⟨4, _⟩ => ⟨S768x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | _, _ => ⟨S8x512x8x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x512x8x768_S4096x8x768 : S8x512x8x768.ShapeCasts S4096x8x768
  shapeCasts_S8x512_S4096x1 : S8x512.ShapeCasts S4096x1
  shapeCasts_S1024_S1x1024 : S1024.ShapeCasts S1x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  natLt_1_32 : 1 < 32
  inb_S256x8x768_S256x1x768_0_0_0 : ∀ a, (![0, 0, 0] : Fin 3 → Nat) a + S256x1x768.size a ≤ S256x8x768.size a
  h_S256x1x768 : 0 < S256x1x768.numel
  shapeCasts_S256x1x768_S256x768 : S256x1x768.ShapeCasts S256x768
  broadcasts_S256x1_S256x768 : S256x1.Broadcasts S256x768
  inb_S256x8x768_S256x1x768_0_1_0 : ∀ a, (![0, 1, 0] : Fin 3 → Nat) a + S256x1x768.size a ≤ S256x8x768.size a
  inb_S256x8x768_S256x1x768_0_2_0 : ∀ a, (![0, 2, 0] : Fin 3 → Nat) a + S256x1x768.size a ≤ S256x8x768.size a
  inb_S256x8x768_S256x1x768_0_3_0 : ∀ a, (![0, 3, 0] : Fin 3 → Nat) a + S256x1x768.size a ≤ S256x8x768.size a
  inb_S256x8x768_S256x1x768_0_4_0 : ∀ a, (![0, 4, 0] : Fin 3 → Nat) a + S256x1x768.size a ≤ S256x8x768.size a
  inb_S256x8x768_S256x1x768_0_5_0 : ∀ a, (![0, 5, 0] : Fin 3 → Nat) a + S256x1x768.size a ≤ S256x8x768.size a
  inb_S256x8x768_S256x1x768_0_6_0 : ∀ a, (![0, 6, 0] : Fin 3 → Nat) a + S256x1x768.size a ≤ S256x8x768.size a
  inb_S256x8x768_S256x1x768_0_7_0 : ∀ a, (![0, 7, 0] : Fin 3 → Nat) a + S256x1x768.size a ≤ S256x8x768.size a
  inb_S768x1024_S768x1024_0_0 : ∀ a, (![0, 0] : Fin 2 → Nat) a + S768x1024.size a ≤ S768x1024.size a
  h_S768x1024 : 0 < S768x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S256x1_S256x1024 : S256x1.Broadcasts S256x1024
  broadcasts_S1x1024_S256x1024 : S1x1024.Broadcasts S256x1024
  reduces_S256x1024_S256 : S256x1024.Reduces [1] S256
  shapeCasts_S256_S256x1 : S256.ShapeCasts S256x1
  inb_S256x1024_S256x1024_0_0 : ∀ a, (![0, 0] : Fin 2 → Nat) a + S256x1024.size a ≤ S256x1024.size a
  h_S256x1024 : 0 < S256x1024.numel
  shapeCasts_S4096x1024_S8x512x1024 : S4096x1024.ShapeCasts S8x512x1024
  dot_S256x768_S768x1024_S256x1024_1_0_0_1_n_n_wf : DotDims.WF S256x768 S768x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8x768.size a ≤ S4096x8x768.size a
  hwx0_0 : ∀ i : grid0.Coords, EltTy.bits .f32 = 32 ∨ (Rect.block (s := S4096x8x768) S256x8x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .i32 = 32 ∨ (Rect.block (s := S4096x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1024.size a ≤ S768x1024.size a
  hwx0_2 : ∀ i : grid0.Coords, EltTy.bits .f32 = 32 ∨ (Rect.block (s := S768x1024) S768x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)

variable [Facts₀]

def dot_S256x768_S768x1024_S256x1024_1_0_0_1_n_n : DotDims S256x768 S768x1024 S256x1024 where
  lhsContracting := [1]
  rhsContracting := [0]
  lhsNonContracting := [0]
  rhsNonContracting := [1]
  lhsBatch := []
  rhsBatch := []
  wf := dot_S256x768_S768x1024_S256x1024_1_0_0_1_n_n_wf

abbrev win0_0 : Pipeline.Window sig grid0 :=
  Pipeline.Window.ofSpec (Memref.whole main_v0) S256x8x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x512x8x768 : Shape := ⟨4, ![8, 512, 8, 768]⟩
abbrev S8x512 : Shape := ⟨2, ![8, 512]⟩
abbrev S768x1024 : Shape := ⟨2, ![768, 1024]⟩
abbrev S1024 : Shape := ⟨1, ![1024]⟩
abbrev S8x512x8x1024 : Shape := ⟨4, ![8, 512, 8, 1024]⟩
abbrev S1x1x1x1024 : Shape := ⟨4, ![1, 1, 1, 1024]⟩
abbrev S8 : Shape := ⟨1, ![8]⟩
abbrev S1x1x8 : Shape := ⟨3, ![1, 1, 8]⟩
abbrev S8x512x1 : Shape := ⟨3, ![8, 512, 1]⟩
abbrev S8x512x8 : Shape := ⟨3, ![8, 512, 8]⟩
abbrev S8x512x8x1 : Shape := ⟨4, ![8, 512, 8, 1]⟩
abbrev S_ : Shape := ⟨0, ![]⟩
abbrev S8x512x1024 : Shape := ⟨3, ![8, 512, 1024]⟩
abbrev S1x1x1024 : Shape := ⟨3, ![1, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8x512x8x768, .f32⟩
  | .hbm, ⟨1, _⟩ => ⟨S8x512, .i32⟩
  | .hbm, ⟨2, _⟩ => ⟨S768x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S8x512x8x1024, .f32⟩
  | .hbm, ⟨7, _⟩ => ⟨S1x1x1x1024, .f32⟩
  | .hbm, ⟨8, _⟩ => ⟨S8x512x8x1024, .f32⟩
  | .hbm, ⟨9, _⟩ => ⟨S8x512x8x1024, .f32⟩
  | .hbm, ⟨10, _⟩ => ⟨S8, .i32⟩
  | .hbm, ⟨11, _⟩ => ⟨S1x1x8, .i32⟩
  | .hbm, ⟨12, _⟩ => ⟨S8x512x1, .i32⟩
  | .hbm, ⟨13, _⟩ => ⟨S8x512x8, .i32⟩
  | .hbm, ⟨14, _⟩ => ⟨S8x512x8, .i32⟩
  | .hbm, ⟨15, _⟩ => ⟨S8x512x8, .i1⟩
  | .hbm, ⟨16, _⟩ => ⟨S8x512x8x1, .i1⟩
  | .hbm, ⟨17, _⟩ => ⟨S8x512x8x1, .f32⟩
  | .hbm, ⟨18, _⟩ => ⟨S8x512x8x1024, .f32⟩
  | .hbm, ⟨19, _⟩ => ⟨S8x512x8x1024, .f32⟩
  | .hbm, ⟨20, _⟩ => ⟨S8x512, .f32⟩
  | .hbm, ⟨21, _⟩ => ⟨S8x512x1, .f32⟩
  | .hbm, ⟨22, _⟩ => ⟨S_, .f32⟩
  | .hbm, ⟨23, _⟩ => ⟨S8x512x1024, .f32⟩
  | .hbm, ⟨24, _⟩ => ⟨S_, .f32⟩
  | .hbm, ⟨25, _⟩ => ⟨S8x512x1, .f32⟩
  | .hbm, ⟨26, _⟩ => ⟨S8x512x1, .f32⟩
  | .hbm, ⟨27, _⟩ => ⟨S8x512x1024, .f32⟩
  | .hbm, ⟨28, _⟩ => ⟨S8x512x1024, .f32⟩
  | .hbm, ⟨29, _⟩ => ⟨S_, .f32⟩
  | .hbm, ⟨30, _⟩ => ⟨S8x512, .f32⟩
  | .hbm, ⟨31, _⟩ => ⟨S8x512x1, .f32⟩
  | .hbm, ⟨32, _⟩ => ⟨S_, .f32⟩
  | .hbm, ⟨33, _⟩ => ⟨S8x512x1, .f32⟩
  | .hbm, ⟨34, _⟩ => ⟨S8x512x1, .f32⟩
  | .hbm, ⟨35, _⟩ => ⟨S8x512x1024, .f32⟩
  | .hbm, ⟨36, _⟩ => ⟨S8x512x1024, .f32⟩
  | .hbm, ⟨37, _⟩ => ⟨S8x512x1024, .f32⟩
  | .hbm, ⟨38, _⟩ => ⟨S_, .f32⟩
  | .hbm, ⟨39, _⟩ => ⟨S8x512, .f32⟩
  | .hbm, ⟨40, _⟩ => ⟨S8x512x1, .f32⟩
  | .hbm, ⟨41, _⟩ => ⟨S_, .f32⟩
  | .hbm, ⟨42, _⟩ => ⟨S8x512x1, .f32⟩
  | .hbm, ⟨43, _⟩ => ⟨S8x512x1, .f32⟩
  | .hbm, ⟨44, _⟩ => ⟨S8x512x1024, .f32⟩
  | .hbm, ⟨45, _⟩ => ⟨S8x512x1024, .f32⟩
  | .hbm, ⟨46, _⟩ => ⟨S_, .f32⟩
  | .hbm, ⟨47, _⟩ => ⟨S8x512x1, .f32⟩
  | .hbm, ⟨48, _⟩ => ⟨S8x512x1, .f32⟩
  | .hbm, ⟨49, _⟩ => ⟨S8x512x1, .f32⟩
  | .hbm, ⟨50, _⟩ => ⟨S8x512x1024, .f32⟩
  | .hbm, ⟨51, _⟩ => ⟨S8x512x1024, .f32⟩
  | .hbm, ⟨52, _⟩ => ⟨S1x1x1024, .f32⟩
  | .hbm, ⟨53, _⟩ => ⟨S8x512x1024, .f32⟩
  | .hbm, ⟨54, _⟩ => ⟨S8x512x1024, .f32⟩
  | .hbm, ⟨55, _⟩ => ⟨S1x1x1024, .f32⟩
  | .hbm, ⟨56, _⟩ => ⟨S8x512x1024, .f32⟩
  | .hbm, ⟨57, _⟩ => ⟨S8x512x1024, .f32⟩
  | _, _ => ⟨S8x512x8x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]

class Facts₀ : Prop where
  bcast_S1024_S1x1x1x1024_3 : S1024.BroadcastsInDim S1x1x1x1024 (![3] : Fin 1 → Fin S1x1x1x1024.rank)
  bcast_S1x1x1x1024_S8x512x8x1024_0_1_2_3 : S1x1x1x1024.BroadcastsInDim S8x512x8x1024 (![0, 1, 2, 3] : Fin 4 → Fin S8x512x8x1024.rank)
  bcast_S8_S1x1x8_2 : S8.BroadcastsInDim S1x1x8 (![2] : Fin 1 → Fin S1x1x8.rank)
  bcast_S8x512_S8x512x1_0_1 : S8x512.BroadcastsInDim S8x512x1 (![0, 1] : Fin 2 → Fin S8x512x1.rank)
  bcast_S1x1x8_S8x512x8_0_1_2 : S1x1x8.BroadcastsInDim S8x512x8 (![0, 1, 2] : Fin 3 → Fin S8x512x8.rank)
  bcast_S8x512x1_S8x512x8_0_1_2 : S8x512x1.BroadcastsInDim S8x512x8 (![0, 1, 2] : Fin 3 → Fin S8x512x8.rank)
  bcast_S8x512x8_S8x512x8x1_0_1_2 : S8x512x8.BroadcastsInDim S8x512x8x1 (![0, 1, 2] : Fin 3 → Fin S8x512x8x1.rank)
  bcast_S8x512x8x1_S8x512x8x1024_0_1_2_3 : S8x512x8x1.BroadcastsInDim S8x512x8x1024 (![0, 1, 2, 3] : Fin 4 → Fin S8x512x8x1024.rank)
  reducesTo_S8x512x8x1024_S8x512x1024_d2 : S8x512x8x1024.ReducesTo [2] S8x512x1024
  h_S_ : 0 < S_.numel
  bcast_S_S8x512x1 : S_.BroadcastsInDim S8x512x1 (![] : Fin 0 → Fin S8x512x1.rank)
  bcast_S8x512x1_S8x512x1024_0_1_2 : S8x512x1.BroadcastsInDim S8x512x1024 (![0, 1, 2] : Fin 3 → Fin S8x512x1024.rank)
  reducesTo_S8x512x1024_S8x512_d2 : S8x512x1024.ReducesTo [2] S8x512
  bcast_S1024_S1x1x1024_2 : S1024.BroadcastsInDim S1x1x1024 (![2] : Fin 1 → Fin S1x1x1024.rank)
  bcast_S1x1x1024_S8x512x1024_0_1_2 : S1x1x1024.BroadcastsInDim S8x512x1024 (![0, 1, 2] : Fin 3 → Fin S8x512x1024.rank)
  dot_S8x512x8x768_S768x1024_S8x512x8x1024_3_0_012_1_n_n_wf : DotDims.WF S8x512x8x768 S768x1024 S8x512x8x1024 [3] [0] [0, 1, 2] [1] [] []

variable [Facts₀]

def dot_S8x512x8x768_S768x1024_S8x512x8x1024_3_0_012_1_n_n : DotDims S8x512x8x768 S768x1024 S8x512x8x1024 where
  lhsContracting := [3]
  rhsContracting := [0]
  lhsNonContracting := [0, 1, 2]
  rhsNonContracting := [1]
  lhsBatch := []
  rhsBatch := []
  wf := dot_S8x512x8x768_S768x1024_S8x512x8x1024_3_0_012_1_n_n_wf

class Facts : Prop extends Facts₀ where

variable [Facts]
-- ==== Proof.PoolSpec.lean ====
/-
  The mathematics of the layer, stated once over plain index types.

  At one position there are eight parameter slots, each a vector of 768 reals, and a signed count `n` of how many of
  the slots are valid. A slot `p` is kept when `p < n`. The kept slots are projected by a 768 × 1024 matrix with a
  bias, summed, and divided by `max n 1`; the resulting row of 1024 numbers is normalised (mean, variance, reciprocal
  square root, scale, shift).

  Two ways of forming the pooled row are written down. `pooledFused` sums the kept slot vectors first, scales by
  `1 / max n 1`, projects ONCE, and adds the bias only where at least one slot is kept. `pooledSlots` projects
  every slot, adds the bias to each, masks, sums and divides. `layerNorm` is the normalisation both share.
-/
import Idealize.ShloMosaic.PureOps.Ideal
import Idealize.ShloMosaic.Lib.ValueIdx

noncomputable section

open scoped BigOperators

namespace Cert.ParamPool

open Idealize.ShloMosaic

/-- The count of valid slots, a signed 32-bit word, as an extended real. -/
def count (n : BitVec 32) : EReal := ((n.toInt : ℝ) : EReal)

/-- A slot's weight formed by comparing FLOATS: 1 when the count exceeds the float whose bit pattern is `lit`
    (the slot's number), else 0 — a one-bit comparison widened to a word and converted. -/
def gate (lit n : BitVec 32) : EReal :=
  ((((Ideal.cmp .ogt (count n) (Ideal.ofBits .f32 lit)).setWidth 32).toInt : ℝ) : EReal)

/-- A slot's weight formed by comparing WORDS: 1 when the slot's number is below the count (signed), else 0. -/
def slot (p : Fin 8) (n : BitVec 32) : EReal :=
  (((IntOp.cmpi .slt (BitVec.ofNat 32 p.val) n).toNat : ℝ) : EReal)

/-- The divisor `max n 1`. -/
def denom (n : BitVec 32) : EReal := max (count n) (Ideal.ofBits .f32 0x3F800000#32)

/-- The kept slots' entries added up slot by slot from zero, each entry times its float-compared weight. -/
def maskedSum (x : Fin 8 → EReal) (n : BitVec 32) : EReal :=
  Ideal.ofBits .f32 0x00000000#32 + x 0 * gate 0x00000000#32 n + x 1 * gate 0x3F800000#32 n
    + x 2 * gate 0x40000000#32 n + x 3 * gate 0x40400000#32 n + x 4 * gate 0x40800000#32 n
    + x 5 * gate 0x40A00000#32 n + x 6 * gate 0x40C00000#32 n + x 7 * gate 0x40E00000#32 n

/-- Pool first, project once: one entry of the pooled row. `x p k` is slot `p`'s `k`-th coordinate, `W k` the
    matrix column for this entry, `bias` the bias of this entry. -/
def pooledFused (x : Fin 8 → Fin 768 → EReal) (n : BitVec 32) (W : Fin 768 → EReal) (bias : EReal) : EReal :=
  (∑ k : Fin 768, (maskedSum (fun p => x p k) n * Ideal.div (Ideal.ofBits .f32 0x3F800000#32) (denom n)) * W k)
    + gate 0x00000000#32 n * bias

/-- Project every slot, then mask, sum and divide: the same entry. -/
def pooledSlots (x : Fin 8 → Fin 768 → EReal) (n : BitVec 32) (W : Fin 768 → EReal) (bias : EReal) : EReal :=
  Ideal.div (∑ p : Fin 8, ((∑ k : Fin 768, x p k * W k) + bias) * slot p n) (denom n)

/-- The mean of a row of 1024 entries. -/
def rowMean (e : Fin 1024 → EReal) : EReal :=
  Ideal.div (∑ k : Fin 1024, e k) (Ideal.ofBits .f32 0x44800000#32)

/-- The mean squared deviation of the row from its mean. -/
def rowVar (e : Fin 1024 → EReal) : EReal :=
  Ideal.div (∑ k : Fin 1024, (e k - rowMean e) * (e k - rowMean e)) (Ideal.ofBits .f32 0x44800000#32)

/-- Layer normalisation of the row `e` with scale `g` and shift `bt`, at entry `d`. -/
def layerNorm (e g bt : Fin 1024 → EReal) (d : Fin 1024) : EReal :=
  (e d - rowMean e) * Ideal.rsqrt (rowVar e + Ideal.ofBits .f32 0x3727C5AC#32) * g d + bt d

end Cert.ParamPool

end
-- ==== Proof.LibBroadcastEntry.lean ====
/-
  Broadcasts of small shapes read at one entry, for the shapes a dense layer with a per-row factor and a per-column
  bias meets:

  * a column `[a, 1]` broadcast over the columns of `[a, b]` — by `vector.broadcast` and by the host's
    `broadcast_in_dim` along `[0, 1]` — reads, at `(p, c)`, the column's entry `(p, 0)`;
  * a row `[1, b]` broadcast over the rows of `[a, b]` by `broadcast_in_dim` along `[0, 1]` reads, at `(p, c)`, the
    row's entry `(0, c)`;
  * a vector `[b]` placed as the row of `[1, b]` by `broadcast_in_dim` along `[1]` reads, at `(u, c)`, the vector's
    entry `c`;
  * a scalar broadcast to any shape reads the scalar everywhere.
-/
import Idealize.ShloMosaic.Lib.ValueLayout
import Idealize.ShloMosaic.Lib.Pipeline.Value

namespace Idealize.ShloMosaic.ValueIdx

variable {α : Type}

/-- A `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[a, 1]` column along `[0, 1]` to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[1, b]` row along `[0, 1]` to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's placing of a `[b]` vector as the row of `[1, b]` (along `[1]`) reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- The host's broadcast of a scalar to any shape reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Idealize.ShloMosaic.ValueIdx
-- ==== Proof.KernelPieces.lean ====
/-
  The small readings the fused program's block is made of, each at one explicit entry, at the ideal values:
  a slot's 256 × 768 slab read out of the 256 × 8 × 768 block, a column of 256 per-row numbers spread over the
  columns of a row, the count as a real, its reciprocal, and a slot's float-compared weight.
-/
import proofs.«171324_j52931176956032_2_alg».proof.Proof.Gen.KernelIdeal.Skeleton
import proofs.«171324_j52931176956032_2_alg».proof.Proof.PoolSpec
import proofs.«171324_j52931176956032_2_alg».proof.Proof.LibBroadcastEntry
import Idealize.ShloMosaic.Lib.Pipeline.Value
import Idealize.ShloMosaic.Lib.Pipeline.FrameBody
import Idealize.ShloMosaic.Lib.ValueIdx
import Idealize.ShloMosaic.Lib.ValueLayout

noncomputable section

open scoped BigOperators

namespace Cert.KernelIdeal.Hand

open Cert.KernelIdeal Cert.KernelIdeal.Gen Cert.ParamPool
open Idealize.ShloMosaic Idealize.ShloMosaic.ValueIdx

/-- Reading the block through the rectangle of slot `o` (rows all, slot `o`, features all) and dropping the unit
    slot axis gives, at row `p` and feature `k`, the block's entry `(p, o, k)`. -/
theorem slab_apply (x0 : Vec Ideal S256x8x768 .f32) (o : Nat) (ho : o < 8)
    (inb : ∀ a, (![0, o, 0] : Fin 3 → Nat) a + S256x1x768.size a ≤ S256x8x768.size a)
    (h : S256x1x768.ShapeCasts S256x768) (p : Fin 256) (k : Fin 768) :
    shapeCast S256x768 (View.ld x0 (Rect.unit (s := S256x8x768) ![0, o, 0] S256x1x768.size inb)) h (ix2 p k)
      = x0 (ix3 p (⟨o, ho⟩ : Fin 8) k) := by
  refine (shapeCast_apply _ h (ix2 p k) (ix3 p (0 : Fin 1) k) ?_).trans ?_
  · rw [Shape.rowMajor_val_three, Shape.rowMajor_val_two]
    show (p.val * 1 + 0) * 768 + k.val = p.val * 768 + k.val
    omega
  · show x0 _ = x0 _
    refine congrArg x0 (funext fun a => Fin.ext ?_)
    match a with
    | ⟨0, _⟩ => show 0 + 1 * p.val = p.val; omega
    | ⟨1, _⟩ => show o + 1 * 0 = o; omega
    | ⟨2, _⟩ => show 0 + 1 * k.val = k.val; omega

/-- The count column: the loaded words converted to floats are the counts as reals. -/
theorem count_apply (v0 : Vec Ideal S256x1 .i32) (p : Fin 256) :
    k0_pay2 v0 (ix2 p (0 : Fin 1)) = count (v0 (ix2 p (0 : Fin 1))) := by
  unfold k0_pay2
  rw [shapeCast_self]
  rfl

/-- A float-compared weight column at a row, for any column `v2` of counts-as-floats. -/
theorem gate_col_apply (v2 : FVec Ideal S256x1 .f32) (lit : BitVec 32) (p : Fin 256) :
    (sitofp .f32 (extui 32 (cmpf .ogt v2 (broadcast S256x1 (Scalar.ofBits .f32 lit))) natLt_1_32) : FVec Ideal S256x1 .f32) (ix2 p (0 : Fin 1))
      = ((((Ideal.cmp .ogt (v2 (ix2 p (0 : Fin 1))) (Ideal.ofBits .f32 lit)).setWidth 32).toInt : ℝ) : EReal) := rfl

end Cert.KernelIdeal.Hand

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.KernelBody.lean ====
/-
  The block the fused program leaves at one grid point, read at one entry.

  Row `p` of the 256 × 1024 block is the layer normalisation of the pooled row: the eight slot slabs of the
  256 × 8 × 768 input block, each weighted by whether the row's count exceeds the slot's number, summed, scaled by
  the reciprocal of `max count 1`, multiplied into the 768 × 1024 matrix, plus the bias where the count is positive.
-/
import proofs.«171324_j52931176956032_2_alg».proof.Proof.Gen.KernelIdeal.Frame
import proofs.«171324_j52931176956032_2_alg».proof.Proof.KernelPieces
import proofs.«171324_j52931176956032_2_alg».proof.Proof.LibMatmulEntry
import Idealize.ShloMosaic.PureOps.Ideal.Laws

noncomputable section

open scoped BigOperators

namespace Cert.KernelIdeal.Hand

open Cert.KernelIdeal Cert.KernelIdeal.Gen Cert.ParamPool
open Idealize.ShloMosaic Idealize.ShloMosaic.ValueIdx

theorem rsqrt_apply {s : Shape} {φ : FTy} (a : FVec Ideal s φ) (i : s.Idx) : rsqrt a i = Ideal.rsqrt (a i) := rfl

/-- A row's sum kept as a column entry: the lane reduction of a 256 × 1024 vector along its second axis, viewed
    as a 256 × 1 column, holds at `(p, 0)` the sum of row `p`. -/
theorem rowsum_apply (e : FVec Ideal S256x1024 .f32) (h : S256x1024.Reduces [1] S256)
    (hφ : FTy.f32 = FTy.f32 ∨ FTy.f32 = FTy.bf16) (hacc : (0x00000000#32 : BitVec 32) = 0x00000000#32)
    (hc : S256.ShapeCasts S256x1) (p : Fin 256) :
    shapeCast S256x1 (multiReduction .add [1] S256 e 0x00000000#32 h hφ hacc) hc (ix2 p (0 : Fin 1))
      = ∑ k : Fin 1024, e (ix2 p k) := by
  refine (shapeCast_apply _ hc (ix2 p (0 : Fin 1)) (ix1 p) ?_).trans ?_
  · rw [Shape.rowMajor_val_one, Shape.rowMajor_val_two]
    show p.val = p.val * 1 + 0
    omega
  · refine (Ideal.multiReduction_add_single e 0x00000000#32 h hφ hacc (ix1 p)).trans ?_
    refine Finset.sum_congr rfl fun k _ => congrArg e (funext fun a => Fin.ext ?_)
    match a with
    | ⟨0, _⟩ => rfl
    | ⟨1, _⟩ => rfl

/-- The matrix product of the program, at an entry. -/
theorem mm_apply (a : FVec Ideal S256x768 .f32) (b : FVec Ideal S768x1024 .f32) (p : Fin 256) (q : Fin 1024) :
    matmul dot_S256x768_S768x1024_S256x1024_1_0_0_1_n_n (some .fp32) a b (constant S256x1024 .f32 0x00000000#32) (ix2 p q)
      = ∑ k : Fin 768, a (ix2 p k) * b (ix2 k q) :=
  Ideal.matmul_rows_cols dot_S256x768_S768x1024_S256x1024_1_0_0_1_n_n rfl rfl rfl rfl rfl rfl (some .fp32) a b p q

/-- The stored value at entry `(p, q)`, over the values the body computed or loaded before it. -/
theorem payload_apply (v6 v10 : FVec Ideal S256x1 .f32) (v74 v76 : FVec Ideal S256x768 .f32) (v80 : FVec Ideal S256x1 .f32)
    (v86 : Vec Ideal S768x1024 .f32) (v88 v112 v116 : Vec Ideal S1x1024 .f32) (p : Fin 256) (q : Fin 1024) :
    k0_pay1 v6 v10 v74 v76 v80 v86 v88 v112 v116 (ix2 p q)
      = layerNorm (fun d => (∑ k : Fin 768, ((v74 (ix2 p k) + v76 (ix2 p k) * v80 (ix2 p (0 : Fin 1))) * v6 (ix2 p (0 : Fin 1))) * v86 (ix2 k d))
            + v10 (ix2 p (0 : Fin 1)) * v88 (ix2 (0 : Fin 1) d))
          (fun d => v112 (ix2 (0 : Fin 1) d)) (fun d => v116 (ix2 (0 : Fin 1) d)) q := by
  unfold k0_pay1 layerNorm rowVar rowMean
  dsimp only
  simp only [addf_apply, mulf_apply, subf_apply, divf_apply, rsqrt_apply, broadcast_apply, shapeCast_self,
    broadcastTo_a1_ab_apply, broadcastTo_1b_ab_apply, mm_apply]
  repeat (rw [rowsum_apply]; try simp only [addf_apply, mulf_apply, subf_apply, divf_apply, rsqrt_apply, broadcast_apply,
    shapeCast_self, broadcastTo_a1_ab_apply, broadcastTo_1b_ab_apply, mm_apply])
  rfl

theorem hz2 : (![0, 0] : Fin 2 → Nat) = fun _ => 0 := funext fun a => by fin_cases a <;> rfl

/-- The reciprocal column at a row: one over `max count 1`. -/
theorem inv_apply (v0 : Vec Ideal S256x1 .i32) (p : Fin 256) :
    k0_pay3 v0 (ix2 p (0 : Fin 1)) = Ideal.div (Ideal.ofBits .f32 0x3F800000#32) (denom (v0 (ix2 p (0 : Fin 1)))) := by
  unfold k0_pay3 denom
  simp only [divf_apply, maximumf_apply, broadcast_apply, count_apply]
  rfl

/-- The bias gate at a row: the weight of slot 0 (whether any slot is kept). -/
theorem has_apply (v0 : Vec Ideal S256x1 .i32) (p : Fin 256) :
    k0_pay4 v0 (ix2 p (0 : Fin 1)) = gate 0x00000000#32 (v0 (ix2 p (0 : Fin 1))) := by
  unfold k0_pay4 gate
  rw [gate_col_apply, count_apply]

/-- The kept slots' sum at row `p`, feature `k`: the eight slabs of the block, each times its weight. -/
theorem acc_apply (x0 : Vec Ideal S256x8x768 .f32) (v0 : Vec Ideal S256x1 .i32) (p : Fin 256) (k : Fin 768) :
    k0_pay6 (k0_pay2 v0) (k0_pay5 v0 (View.ld x0 r0_1) (View.ld x0 r0_2) (View.ld x0 r0_3)) (View.ld x0 r0_4)
        (View.ld x0 r0_5) (View.ld x0 r0_6) (View.ld x0 r0_7) (ix2 p k)
      + k0_pay7 (View.ld x0 r0_8) (ix2 p k) * k0_pay8 (k0_pay2 v0) (ix2 p (0 : Fin 1))
    = maskedSum (fun s => x0 (ix3 p s k)) (v0 (ix2 p (0 : Fin 1))) := by
  unfold k0_pay6 k0_pay5 k0_pay7 k0_pay8 maskedSum gate
  dsimp only
  simp only [addf_apply, mulf_apply, broadcast_apply, broadcastTo_a1_ab_apply, gate_col_apply, count_apply]
  rw [slab_apply x0 0 (by decide), slab_apply x0 1 (by decide), slab_apply x0 2 (by decide), slab_apply x0 3 (by decide),
    slab_apply x0 4 (by decide), slab_apply x0 5 (by decide), slab_apply x0 6 (by decide), slab_apply x0 7 (by decide)]
  rfl

/-- **The block at an entry.** After the body, entry `(p, q)` of the output block is the layer normalisation, at `q`,
    of the pooled row of the block's row `p`. -/
theorem block_apply (x0 : Vec Ideal S256x8x768 .f32) (x1 : Vec Ideal S256x1 .i32) (x2 : Vec Ideal S768x1024 .f32)
    (x3 x4 x5 : Vec Ideal S1x1024 .f32) (p : Fin 256) (q : Fin 1024) :
    out0_6 x0 x1 x2 x3 x4 x5 (ix2 p q)
      = layerNorm (fun d => pooledFused (fun s k => x0 (ix3 p s k)) (x1 (ix2 p (0 : Fin 1))) (fun k => x2 (ix2 k d))
            (x3 (ix2 (0 : Fin 1) d)))
          (fun d => x4 (ix2 (0 : Fin 1) d)) (fun d => x5 (ix2 (0 : Fin 1) d)) q := by
  unfold out0_6
  rw [View.canon_unit_zero hz2]
  simp only [View.ld_unit_zero (S := S256x1) hz2, View.ld_unit_zero (S := S768x1024) hz2,
    View.ld_unit_zero (S := S1x1024) hz2]
  refine (payload_apply _ _ _ _ _ _ _ _ _ p q).trans ?_
  refine congrArg (fun e => layerNorm e _ _ q) (funext fun d => ?_)
  unfold pooledFused
  simp only [acc_apply, inv_apply, has_apply]

end Cert.KernelIdeal.Hand

end
-- ==== Proof.KernelArray.lean ====
/-
  From blocks to the whole array, and on to the program's result.

  Grid point `t` of sixteen handles rows `256 t … 256 t + 255` of the 4096 flattened positions: it reads those rows of
  the slot vectors and of the counts, the whole matrix and the three rows of bias, scale and shift, and writes those
  rows of the 4096 × 1024 output. So every point writes a block of ONE function of the arrays the region finds, the
  blocks tile the output, and the output array is that function. Around the region the program only reshapes:
  position `(b, s)` of 8 × 512 is row `512 b + s`.
-/
import proofs.«171324_j52931176956032_2_alg».proof.Proof.Gen.KernelIdeal.Frame
import proofs.«171324_j52931176956032_2_alg».proof.Proof.KernelBody
import Idealize.ShloMosaic.Lib.Pipeline.Value
import Idealize.ShloMosaic.Lib.StableHlo.Run
import Idealize.ShloMosaic.Lib.Tactic

noncomputable section

open scoped BigOperators

namespace Cert.KernelIdeal.Hand

open Cert.KernelIdeal Cert.KernelIdeal.Gen Cert.ParamPool
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The 4096 × 1024 output as one function of the arrays the region finds: row `r` is the layer normalisation of the
    pooled row of position `r`. -/
def rowsOut (X : Vec Ideal S4096x8x768 .f32) (N : Vec Ideal S4096x1 .i32) (W : Vec Ideal S768x1024 .f32)
    (B G Bt : Vec Ideal S1x1024 .f32) : Vec Ideal S4096x1024 .f32 := fun j =>
  layerNorm (fun d => pooledFused (fun s k => X (ix3 (j 0) s k)) (N (ix2 (j 0) (0 : Fin 1))) (fun k => W (ix2 k d))
      (B (ix2 (0 : Fin 1) d)))
    (fun d => G (ix2 (0 : Fin 1) d)) (fun d => Bt (ix2 (0 : Fin 1) d)) (j 1)

/-- The printed index maps over the sixteen points: the three row-blocked windows are at block `t` on their first
    axis and at block 0 elsewhere; the four whole-array windows are at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section Blocks
variable (c : Dev nD) (t : Fin cfg0.N) (p : Fin 256) (r : Fin 4096) (hr : r.val = t.val * 256 + p.val)
include hr

/-- Row `p` of the slot-vector block at point `t` is row `256 t + p` of the array. -/
theorem iblk0_apply (s : Fin 8) (k : Fin 768) :
    (iblk m c 0 t : Vec Ideal S256x8x768 .f32) (ix3 p s k) = (V m c main_v0 : Vec Ideal S4096x8x768 .f32) (ix3 r s k) := by
  obtain ⟨e0, e1, e2, -⟩ := idx_facts t
  have h : ((cfg0.win 0).blk t).view.emb (ix3 p s k) = ix3 r s k := by
    funext a; apply Fin.ext
    match a with
    | ⟨0, _⟩ => show win0_0.index t (0 : Fin 3) * 256 + 1 * p.val = r.val; omega
    | ⟨1, _⟩ => show win0_0.index t (1 : Fin 3) * 8 + 1 * s.val = s.val; omega
    | ⟨2, _⟩ => show win0_0.index t (2 : Fin 3) * 768 + 1 * k.val = k.val; omega
  unfold iblk
  rw [View.read_apply]
  show V m c main_v0 (((cfg0.win 0).blk t).view.emb (ix3 p s k)) = _
  rw [h]

/-- Row `p` of the count block at point `t` is row `256 t + p` of the count column. -/
theorem iblk1_apply (u : Fin 1) :
    (iblk m c 1 t : Vec Ideal S256x1 .i32) (ix2 p u) = (V m c main_v1 : Vec Ideal S4096x1 .i32) (ix2 r u) := by
  obtain ⟨-, -, -, e0, e1, -⟩ := idx_facts t
  have h : ((cfg0.win 1).blk t).view.emb (ix2 p u) = ix2 r u := by
    funext a; apply Fin.ext
    match a with
    | ⟨0, _⟩ => show win0_1.index t (0 : Fin 2) * 256 + 1 * p.val = r.val; omega
    | ⟨1, _⟩ => show win0_1.index t (1 : Fin 2) * 1 + 1 * u.val = u.val; omega
  unfold iblk
  rw [View.read_apply]
  show V m c main_v1 (((cfg0.win 1).blk t).view.emb (ix2 p u)) = _
  rw [h]

/-- Entry `(p, q)` of the output block at point `t` sits at `(256 t + p, q)` of the output array. -/
theorem oblk_emb (q : Fin 1024) : ((cfg0.win 6).blk t).view.emb (ix2 p q) = ix2 r q := by
  obtain ⟨-, -, -, -, -, -, -, -, -, -, -, -, -, e0, e1⟩ := idx_facts t
  funext a; apply Fin.ext
  match a with
  | ⟨0, _⟩ => show win0_6.index t (0 : Fin 2) * 256 + 1 * p.val = r.val; omega
  | ⟨1, _⟩ => show win0_6.index t (1 : Fin 2) * 1024 + 1 * q.val = q.val; omega

end Blocks

section Whole
variable (c : Dev nD) (t : Fin cfg0.N)

/-- The matrix block is the whole matrix. -/
theorem iblk2_apply (k : Fin 768) (d : Fin 1024) :
    (iblk m c 2 t : Vec Ideal S768x1024 .f32) (ix2 k d) = (V m c main_arg2 : Vec Ideal S768x1024 .f32) (ix2 k d) := by
  obtain ⟨-, -, -, -, -, e0, e1, -⟩ := idx_facts t
  have h : ((cfg0.win 2).blk t).view.emb (ix2 k d) = ix2 k d := by
    funext a; apply Fin.ext
    match a with
    | ⟨0, _⟩ => show win0_2.index t (0 : Fin 2) * 768 + 1 * k.val = k.val; omega
    | ⟨1, _⟩ => show win0_2.index t (1 : Fin 2) * 1024 + 1 * d.val = d.val; omega
  unfold iblk
  rw [View.read_apply]
  show V m c main_arg2 (((cfg0.win 2).blk t).view.emb (ix2 k d)) = _
  rw [h]

/-- The bias block is the whole bias row. -/
theorem iblk3_apply (u : Fin 1) (d : Fin 1024) :
    (iblk m c 3 t : Vec Ideal S1x1024 .f32) (ix2 u d) = (V m c main_v2 : Vec Ideal S1x1024 .f32) (ix2 u d) := by
  obtain ⟨-, -, -, -, -, -, -, e0, e1, -⟩ := idx_facts t
  have h : ((cfg0.win 3).blk t).view.emb (ix2 u d) = ix2 u d := by
    funext a; apply Fin.ext
    match a with
    | ⟨0, _⟩ => show win0_3.index t (0 : Fin 2) * 1 + 1 * u.val = u.val; omega
    | ⟨1, _⟩ => show win0_3.index t (1 : Fin 2) * 1024 + 1 * d.val = d.val; omega
  unfold iblk
  rw [View.read_apply]
  show V m c main_v2 (((cfg0.win 3).blk t).view.emb (ix2 u d)) = _
  rw [h]

/-- The scale block is the whole scale row. -/
theorem iblk4_apply (u : Fin 1) (d : Fin 1024) :
    (iblk m c 4 t : Vec Ideal S1x1024 .f32) (ix2 u d) = (V m c main_v3 : Vec Ideal S1x1024 .f32) (ix2 u d) := by
  obtain ⟨-, -, -, -, -, -, -, -, -, e0, e1, -⟩ := idx_facts t
  have h : ((cfg0.win 4).blk t).view.emb (ix2 u d) = ix2 u d := by
    funext a; apply Fin.ext
    match a with
    | ⟨0, _⟩ => show win0_4.index t (0 : Fin 2) * 1 + 1 * u.val = u.val; omega
    | ⟨1, _⟩ => show win0_4.index t (1 : Fin 2) * 1024 + 1 * d.val = d.val; omega
  unfold iblk
  rw [View.read_apply]
  show V m c main_v3 (((cfg0.win 4).blk t).view.emb (ix2 u d)) = _
  rw [h]

/-- The shift block is the whole shift row. -/
theorem iblk5_apply (u : Fin 1) (d : Fin 1024) :
    (iblk m c 5 t : Vec Ideal S1x1024 .f32) (ix2 u d) = (V m c main_v4 : Vec Ideal S1x1024 .f32) (ix2 u d) := by
  obtain ⟨-, -, -, -, -, -, -, -, -, -, -, e0, e1, -⟩ := idx_facts t
  have h : ((cfg0.win 5).blk t).view.emb (ix2 u d) = ix2 u d := by
    funext a; apply Fin.ext
    match a with
    | ⟨0, _⟩ => show win0_5.index t (0 : Fin 2) * 1 + 1 * u.val = u.val; omega
    | ⟨1, _⟩ => show win0_5.index t (1 : Fin 2) * 1024 + 1 * d.val = d.val; omega
  unfold iblk
  rw [View.read_apply]
  show V m c main_v4 (((cfg0.win 5).blk t).view.emb (ix2 u d)) = _
  rw [h]

end Whole

/-- **What point `t` writes back** is block `t` of `rowsOut` of the arrays as the region finds them. -/
theorem flushed_eq (c : Dev nD) (t : Fin cfg0.N) :
    (dats m 0 c).flushed 6 t = ((cfg0.win 6).blk t).view.read (Elt Ideal)
      (rowsOut (V m c main_v0) (V m c main_v1) (V m c main_arg2) (V m c main_v2) (V m c main_v3) (V m c main_v4)) := by
  show (cfg0.win 6).cut (grid0.coords t) ((dats m 0 c).after 6 t) = _
  rw [after0_6]
  have key : ∀ y : S256x1024.Idx,
      out0_6 (iblk m c 0 t) (iblk m c 1 t) (iblk m c 2 t) (iblk m c 3 t) (iblk m c 4 t) (iblk m c 5 t) y
        = rowsOut (V m c main_v0) (V m c main_v1) (V m c main_arg2) (V m c main_v2) (V m c main_v3) (V m c main_v4)
            (((cfg0.win 6).blk t).view.emb y) := by
    intro y
    obtain ⟨p, q, rfl⟩ : ∃ (p : Fin 256) (q : Fin 1024), y = ix2 p q := ⟨y 0, y 1, eq_ix2 y⟩
    have hN : cfg0.N = 16 := N_0
    have ht := t.isLt
    have hp := p.isLt
    have hr : (⟨t.val * 256 + p.val, by omega⟩ : Fin 4096).val = t.val * 256 + p.val := rfl
    refine (block_apply (iblk m c 0 t) (iblk m c 1 t) (iblk m c 2 t) (iblk m c 3 t) (iblk m c 4 t) (iblk m c 5 t) p q).trans ?_
    rw [oblk_emb t p _ hr q]
    unfold rowsOut
    simp only [iblk0_apply m c t p _ hr, iblk1_apply m c t p _ hr, iblk2_apply m c t, iblk3_apply m c t,
      iblk4_apply m c t, iblk5_apply m c t]
  funext j
  exact key j

/-- An index of the output array is in point `t`'s block iff each coordinate is in the block's range. -/
theorem mem_blk (t : Fin cfg0.N) (i : S4096x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v5).slice (win0_6.rect t)).set ↔ _
  rw [View.set_slice_whole, Rect.mem_set_unit]
  exact Iff.rfl

/-- **The output array after the run**: row `r` lies in the block of point `r / 256`, so the sixteen blocks cover the
    array and it is `rowsOut` of the arrays the region found. -/
theorem final (c : Dev nD) : (dats m 0 c).arrAt 6 cfg0.N
    = rowsOut (V m c main_v0) (V m c main_v1) (V m c main_arg2) (V m c main_v2) (V m c main_v3) (V m c main_v4) :=
  (dats m 0 c).arrAt_eq_of_cover 6 _ (fun t _ => flushed_eq m c t) fun i => by
    have hN : cfg0.N = 16 := N_0
    have hi0 : (i 0).val < 4096 := (i 0).isLt
    have hi1 : (i 1).val < 1024 := (i 1).isLt
    obtain ⟨t, ht⟩ : ∃ t : Fin cfg0.N, t.val = (i 0).val / 256 := ⟨⟨(i 0).val / 256, by omega⟩, rfl⟩
    obtain ⟨-, -, -, -, -, -, -, -, -, -, -, -, -, e0, e1⟩ := idx_facts t
    refine ⟨t, flush0_6 t, ?_⟩
    rw [mem_blk]
    intro a
    match a with
    | ⟨0, _⟩ =>
      show win0_6.index t (0 : Fin 2) * 256 ≤ (i 0).val ∧ (i 0).val < win0_6.index t (0 : Fin 2) * 256 + 256
      omega
    | ⟨1, _⟩ =>
      show win0_6.index t (1 : Fin 2) * 1024 ≤ (i 1).val ∧ (i 1).val < win0_6.index t (1 : Fin 2) * 1024 + 1024
      omega

/-! ## The reshapes before the region -/

section Reshapes
variable (c : Dev nD)

theorem V_v0 : (V m c main_v0 : Vec Ideal S4096x8x768 .f32)
    = shapeCast S4096x8x768 (m ((c : Thread nD τ).loc main_arg0) : Vec Ideal S8x512x8x768 .f32) shapeCasts_S8x512x8x768_S4096x8x768 := by
  show StableHlo.after hostOps0 (fun b => m (c, b)) (Proc.devRef .tc main_v0) = _
  after_results
  rfl
theorem V_v1 : (V m c main_v1 : Vec Ideal S4096x1 .i32)
    = shapeCast S4096x1 (m ((c : Thread nD τ).loc main_arg1) : Vec Ideal S8x512 .i32) shapeCasts_S8x512_S4096x1 := by
  show StableHlo.after hostOps0 (fun b => m (c, b)) (Proc.devRef .tc main_v1) = _
  after_results
  rfl
theorem V_v2 : (V m c main_v2 : Vec Ideal S1x1024 .f32)
    = shapeCast S1x1024 (m ((c : Thread nD τ).loc main_arg3) : Vec Ideal S1024 .f32) shapeCasts_S1024_S1x1024 := by
  show StableHlo.after hostOps0 (fun b => m (c, b)) (Proc.devRef .tc main_v2) = _
  after_results
  rfl
theorem V_v3 : (V m c main_v3 : Vec Ideal S1x1024 .f32)
    = shapeCast S1x1024 (m ((c : Thread nD τ).loc main_arg4) : Vec Ideal S1024 .f32) shapeCasts_S1024_S1x1024 := by
  show StableHlo.after hostOps0 (fun b => m (c, b)) (Proc.devRef .tc main_v3) = _
  after_results
  rfl
theorem V_v4 : (V m c main_v4 : Vec Ideal S1x1024 .f32)
    = shapeCast S1x1024 (m ((c : Thread nD τ).loc main_arg5) : Vec Ideal S1024 .f32) shapeCasts_S1024_S1x1024 := by
  show StableHlo.after hostOps0 (fun b => m (c, b)) (Proc.devRef .tc main_v4) = _
  after_results
  rfl

end Reshapes

/-! ## The reshape after the region, and the result -/

/-- The program's result as a function of the argument arrays: at `(b, s, d)`, the layer normalisation of the row pooled
    the fused way at position `(b, s)`. -/
def result (A0 : Vec Ideal S8x512x8x768 .f32) (A1 : Vec Ideal S8x512 .i32) (A2 : Vec Ideal S768x1024 .f32)
    (A3 A4 A5 : Vec Ideal S1024 .f32) : Vec Ideal S8x512x1024 .f32 := fun i =>
  layerNorm (fun d => pooledFused (fun p k => A0 (ix4 (i 0) (i 1) p k)) (A1 (ix2 (i 0) (i 1))) (fun k => A2 (ix2 k d))
      (A3 (ix1 d)))
    (fun d => A4 (ix1 d)) (fun d => A5 (ix1 d)) (i 2)

/-- What the reshape after the region leaves in the result buffer: the output array viewed as 8 × 512 × 1024. -/
theorem tail_eq (c : Dev nD) :
    Pipeline.afterTail₀ cfgs (dats m) 0 (V0 m) [hostOps1] c main_v6
      = shapeCast S8x512x1024
          (rowsOut (V m c main_v0) (V m c main_v1) (V m c main_arg2) (V m c main_v2) (V m c main_v3) (V m c main_v4))
          shapeCasts_S4096x1024_S8x512x1024 := by
  have e : Pipeline.withArrays (cfgs 0).spec c (V0 m c) (fun w => (dats m 0 c).arrAt w (cfgs 0).N) (Proc.devRef .tc main_v5)
      = rowsOut (V m c main_v0) (V m c main_v1) (V m c main_arg2) (V m c main_v2) (V m c main_v3) (V m c main_v4) :=
    (Pipeline.withArrays_arr spec0 launch0.win.arr_inj c _ _ 6).trans (final m c)
  unfold Pipeline.afterTail₀
  show StableHlo.after hostOps1 _ (Proc.devRef .tc main_v6) = _
  after_results
  rw [e]
  rfl

/-- **The result at an entry**: position `(b, s)` is row `512 b + s` of the flattened arrays, whose reshapes read the
    arguments back at `(b, s)`. -/
theorem result_eq (c : Dev nD) :
    shapeCast S8x512x1024
        (rowsOut (V m c main_v0) (V m c main_v1) (V m c main_arg2) (V m c main_v2) (V m c main_v3) (V m c main_v4))
        shapeCasts_S4096x1024_S8x512x1024
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨b, s, d, rfl⟩ : ∃ (b : Fin 8) (s : Fin 512) (d : Fin 1024), i = ix3 b s d := ⟨i 0, i 1, i 2, eq_ix3 i⟩
  have hb := b.isLt
  have hs := s.isLt
  obtain ⟨r, hr⟩ : ∃ r : Fin 4096, r.val = b.val * 512 + s.val := ⟨⟨b.val * 512 + s.val, by omega⟩, rfl⟩
  refine (shapeCast_apply _ shapeCasts_S4096x1024_S8x512x1024 (ix3 b s d) (ix2 r d) ?_).trans ?_
  · rw [Shape.rowMajor_val_two, Shape.rowMajor_val_three]
    show r.val * 1024 + d.val = (b.val * 512 + s.val) * 1024 + d.val
    rw [hr]
  · have e0 : ∀ (p : Fin 8) (k : Fin 768), (V m c main_v0 : Vec Ideal S4096x8x768 .f32) (ix3 r p k)
        = (m ((c : Thread nD τ).loc main_arg0) : Vec Ideal S8x512x8x768 .f32) (ix4 b s p k) := fun p k => by
      rw [V_v0]
      refine shapeCast_apply _ _ (ix3 r p k) (ix4 b s p k) ?_
      rw [Shape.rowMajor_val_four, Shape.rowMajor_val_three]
      show ((b.val * 512 + s.val) * 8 + p.val) * 768 + k.val = (r.val * 8 + p.val) * 768 + k.val
      rw [hr]
    have e1 : (V m c main_v1 : Vec Ideal S4096x1 .i32) (ix2 r (0 : Fin 1))
        = (m ((c : Thread nD τ).loc main_arg1) : Vec Ideal S8x512 .i32) (ix2 b s) := by
      rw [V_v1]
      refine shapeCast_apply _ _ (ix2 r (0 : Fin 1)) (ix2 b s) ?_
      rw [Shape.rowMajor_val_two, Shape.rowMajor_val_two]
      show b.val * 512 + s.val = r.val * 1 + 0
      rw [hr]; omega
    have e2 : (V m c main_arg2 : Vec Ideal S768x1024 .f32) = m ((c : Thread nD τ).loc main_arg2) := V_main_arg2 m c
    have e3 : ∀ d' : Fin 1024, (V m c main_v2 : Vec Ideal S1x1024 .f32) (ix2 (0 : Fin 1) d')
        = (m ((c : Thread nD τ).loc main_arg3) : Vec Ideal S1024 .f32) (ix1 d') := fun d' => by
      rw [V_v2]; exact shapeCast_a_1a_apply _ _ _ _
    have e4 : ∀ d' : Fin 1024, (V m c main_v3 : Vec Ideal S1x1024 .f32) (ix2 (0 : Fin 1) d')
        = (m ((c : Thread nD τ).loc main_arg4) : Vec Ideal S1024 .f32) (ix1 d') := fun d' => by
      rw [V_v3]; exact shapeCast_a_1a_apply _ _ _ _
    have e5 : ∀ d' : Fin 1024, (V m c main_v4 : Vec Ideal S1x1024 .f32) (ix2 (0 : Fin 1) d')
        = (m ((c : Thread nD τ).loc main_arg5) : Vec Ideal S1024 .f32) (ix1 d') := fun d' => by
      rw [V_v4]; exact shapeCast_a_1a_apply _ _ _ _
    show layerNorm (fun d' => pooledFused (fun p k => (V m c main_v0 : Vec Ideal S4096x8x768 .f32) (ix3 r p k))
          ((V m c main_v1 : Vec Ideal S4096x1 .i32) (ix2 r (0 : Fin 1)))
          (fun k => (V m c main_arg2 : Vec Ideal S768x1024 .f32) (ix2 k d'))
          ((V m c main_v2 : Vec Ideal S1x1024 .f32) (ix2 (0 : Fin 1) d')))
        (fun d' => (V m c main_v3 : Vec Ideal S1x1024 .f32) (ix2 (0 : Fin 1) d'))
        (fun d' => (V m c main_v4 : Vec Ideal S1x1024 .f32) (ix2 (0 : Fin 1) d')) d = _
    simp only [e0, e1, e2, e3, e4, e5]
    rfl

/-- **The run, read**: every weakly fair execution ends with the result buffer at `result` of the arguments and the
    arguments unchanged. -/
theorem run : θ_run defs (onTc (τ := τ) (main (F := Ideal))) ⟨m, fun _ => 0, ρ⟩ (fun r => ∀ c : Dev nD,
      r.2.mem ((c.tc : Thread nD τ).loc main_v6)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v6 (Pipeline.mem_restRefs_of main_v6 (by decide) (by decide))).trans ((tail_eq m c).trans (result_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Hand

end
-- ==== Proof.RefValue.lean ====
/-
  The reference program's result at one entry `(b, s, d)`: the layer normalisation, at `d`, of the row pooled the
  slot-by-slot way — every slot projected and biased, masked by whether its number is below the count, summed over
  the slots, divided by `max count 1`. Each operation of the program is read at an index; what is left is to name the
  indices it reads its operands at.
-/
import proofs.«171324_j52931176956032_2_alg».proof.Proof.Gen.ReferenceIdeal.Read
import proofs.«171324_j52931176956032_2_alg».proof.Proof.PoolSpec
import Idealize.ShloMosaic.Lib.ValueIdx
import Idealize.ShloMosaic.PureOps.Ideal.Laws

noncomputable section

open scoped BigOperators

namespace Cert.ReferenceIdeal.Hand

open Cert.ReferenceIdeal Cert.ReferenceIdeal.Read Cert.ParamPool
open Idealize.ShloMosaic Idealize.ShloMosaic.ValueIdx

/-! ## Where each operation reads its operand -/

section Indices
variable (b : Fin 8) (s : Fin 512) (p : Fin 8) (d : Fin 1024) (k : Fin 768) (u : Fin 1)

theorem i25 : idx_main_v25 (ix3 b s d) = ix3 b s (0 : Fin 1) := funext fun a => Fin.ext (by
  match a with | ⟨0, _⟩ => rfl | ⟨1, _⟩ => rfl | ⟨2, _⟩ => rfl)
theorem i32 : idx_main_v32 (ix3 b s d) = ix3 b s (0 : Fin 1) := funext fun a => Fin.ext (by
  match a with | ⟨0, _⟩ => rfl | ⟨1, _⟩ => rfl | ⟨2, _⟩ => rfl)
theorem i37 : idx_main_v37 (ix3 b s d) = ix3 b s (0 : Fin 1) := funext fun a => Fin.ext (by
  match a with | ⟨0, _⟩ => rfl | ⟨1, _⟩ => rfl | ⟨2, _⟩ => rfl)
theorem i19 : idx_main_v19 (ix3 b s d) = ix3 b s (0 : Fin 1) := funext fun a => Fin.ext (by
  match a with | ⟨0, _⟩ => rfl | ⟨1, _⟩ => rfl | ⟨2, _⟩ => rfl)
theorem i22 : idx_main_v22 (ix3 b s u) = ix2 b s := funext fun a => Fin.ext (by
  match a with | ⟨0, _⟩ => rfl | ⟨1, _⟩ => rfl)
theorem i29 : idx_main_v29 (ix3 b s u) = ix2 b s := funext fun a => Fin.ext (by
  match a with | ⟨0, _⟩ => rfl | ⟨1, _⟩ => rfl)
theorem i15 : idx_main_v15 (ix3 b s u) = ix2 b s := funext fun a => Fin.ext (by
  match a with | ⟨0, _⟩ => rfl | ⟨1, _⟩ => rfl)
theorem i21 : idx_main_v21 (ix2 b s) d = ix3 b s d := funext fun a => Fin.ext (by
  match a with | ⟨0, _⟩ => rfl | ⟨1, _⟩ => rfl | ⟨2, _⟩ => rfl)
theorem i28 : idx_main_v28 (ix2 b s) d = ix3 b s d := funext fun a => Fin.ext (by
  match a with | ⟨0, _⟩ => rfl | ⟨1, _⟩ => rfl | ⟨2, _⟩ => rfl)
theorem i16 : idx_main_v16 (ix3 b s d) p = ix4 b s p d := funext fun a => Fin.ext (by
  match a with | ⟨0, _⟩ => rfl | ⟨1, _⟩ => rfl | ⟨2, _⟩ => rfl | ⟨3, _⟩ => rfl)
theorem i12 : idx_main_v12 (ix4 b s p d) = ix4 b s p (0 : Fin 1) := funext fun a => Fin.ext (by
  match a with | ⟨0, _⟩ => rfl | ⟨1, _⟩ => rfl | ⟨2, _⟩ => rfl | ⟨3, _⟩ => rfl)
theorem i10 : idx_main_v10 (ix4 b s p u) = ix3 b s p := funext fun a => Fin.ext (by
  match a with | ⟨0, _⟩ => rfl | ⟨1, _⟩ => rfl | ⟨2, _⟩ => rfl)
theorem i7 : idx_main_v7 (ix3 b s p) = ix3 (0 : Fin 1) (0 : Fin 1) p := funext fun a => Fin.ext (by
  match a with | ⟨0, _⟩ => rfl | ⟨1, _⟩ => rfl | ⟨2, _⟩ => rfl)
theorem i5 (u' : Fin 1) : idx_main_v5 (ix3 u u' p) = ix1 p := funext fun a => Fin.ext (by
  match a with | ⟨0, _⟩ => rfl)
theorem i8 : idx_main_v8 (ix3 b s p) = ix3 b s (0 : Fin 1) := funext fun a => Fin.ext (by
  match a with | ⟨0, _⟩ => rfl | ⟨1, _⟩ => rfl | ⟨2, _⟩ => rfl)
theorem i6 : idx_main_v6 (ix3 b s u) = ix2 b s := funext fun a => Fin.ext (by
  match a with | ⟨0, _⟩ => rfl | ⟨1, _⟩ => rfl)
theorem il0 : lidx_main_v0 (ix4 b s p d) k = ix4 b s p k := funext fun a => Fin.ext (by
  match a with | ⟨0, _⟩ => rfl | ⟨1, _⟩ => rfl | ⟨2, _⟩ => rfl | ⟨3, _⟩ => rfl)
theorem ir0 : ridx_main_v0 (ix4 b s p d) k = ix2 k d := funext fun a => Fin.ext (by
  match a with | ⟨0, _⟩ => rfl | ⟨1, _⟩ => rfl)
theorem i2 : idx_main_v2 (ix4 b s p d) = ix4 (0 : Fin 1) (0 : Fin 1) (0 : Fin 1) d := funext fun a => Fin.ext (by
  match a with | ⟨0, _⟩ => rfl | ⟨1, _⟩ => rfl | ⟨2, _⟩ => rfl | ⟨3, _⟩ => rfl)
theorem i1 (u' u'' : Fin 1) : idx_main_v1 (ix4 u u' u'' d) = ix1 d := funext fun a => Fin.ext (by
  match a with | ⟨0, _⟩ => rfl)
theorem i40 : idx_main_v40 (ix3 b s d) = ix3 (0 : Fin 1) (0 : Fin 1) d := funext fun a => Fin.ext (by
  match a with | ⟨0, _⟩ => rfl | ⟨1, _⟩ => rfl | ⟨2, _⟩ => rfl)
theorem i39 (u' : Fin 1) : idx_main_v39 (ix3 u u' d) = ix1 d := funext fun a => Fin.ext (by
  match a with | ⟨0, _⟩ => rfl)
theorem i43 : idx_main_v43 (ix3 b s d) = ix3 (0 : Fin 1) (0 : Fin 1) d := funext fun a => Fin.ext (by
  match a with | ⟨0, _⟩ => rfl | ⟨1, _⟩ => rfl | ⟨2, _⟩ => rfl)
theorem i42 (u' : Fin 1) : idx_main_v42 (ix3 u u' d) = ix1 d := funext fun a => Fin.ext (by
  match a with | ⟨0, _⟩ => rfl)

end Indices

/-! ## The stages -/

variable (x0 : (⟨S8x512x8x768, .f32⟩ : BufTy).Contents (Elt Ideal)) (x1 : (⟨S8x512, .i32⟩ : BufTy).Contents (Elt Ideal))
  (x2 : (⟨S768x1024, .f32⟩ : BufTy).Contents (Elt Ideal)) (x3 x4 x5 : (⟨S1024, .f32⟩ : BufTy).Contents (Elt Ideal))

/-- The weight of slot `p` at position `(b, s)`, spread over the 1024 output columns. -/
theorem weight_apply (b : Fin 8) (s : Fin 512) (p : Fin 8) (d : Fin 1024) :
    val_main_v12 (F := Ideal) x1 (ix4 b s p d) = slot p (x1 (ix2 b s)) := by
  rw [val_main_v12_apply, i12, val_main_v11_apply, val_main_v10_apply, i10, val_main_v9_apply, val_main_v7_apply, i7,
    val_main_v5_apply, i5, val_main_v4_apply, val_main_v8_apply, i8, val_main_v6_apply, i6]
  rfl

/-- The divisor `max count 1` at position `(b, s)`, spread over the columns. -/
theorem denom_apply (b : Fin 8) (s : Fin 512) (d : Fin 1024) :
    val_main_v19 (F := Ideal) x1 (ix3 b s d) = denom (x1 (ix2 b s)) := by
  rw [val_main_v19_apply, i19, val_main_v18_apply, val_main_v15_apply, i15, val_main_v14_apply, val_main_v17_apply,
    val_main_cst_0_apply]
  rfl

/-- The pooled row, entry `d` at position `(b, s)`. -/
theorem pooled_apply (b : Fin 8) (s : Fin 512) (d : Fin 1024) :
    val_main_v20 (F := Ideal) x0 x1 x2 x3 (ix3 b s d)
      = pooledSlots (fun p k => x0 (ix4 b s p k)) (x1 (ix2 b s)) (fun k => x2 (ix2 k d)) (x3 (ix1 d)) := by
  rw [val_main_v20_apply, val_main_v16_apply, denom_apply, val_main_cst_apply]
  simp only [i16, val_main_v13_apply, weight_apply, val_main_v3_apply, val_main_v0_apply, il0, ir0, val_main_v2_apply, i2,
    val_main_v1_apply, i1]
  unfold pooledSlots
  simp only [Ideal.ofBits_def, Ideal.ofBits_zero_f32, zero_add]
  rfl

/-- **The reference at an entry.** -/
theorem ref_apply (b : Fin 8) (s : Fin 512) (d : Fin 1024) :
    val_main_v44 (F := Ideal) x0 x1 x2 x3 x4 x5 (ix3 b s d)
      = layerNorm (fun d' => pooledSlots (fun p k => x0 (ix4 b s p k)) (x1 (ix2 b s)) (fun k => x2 (ix2 k d')) (x3 (ix1 d')))
          (fun d' => x4 (ix1 d')) (fun d' => x5 (ix1 d')) d := by
  have mean : val_main_v24 (F := Ideal) x0 x1 x2 x3 (ix3 b s (0 : Fin 1))
      = rowMean (fun d' => pooledSlots (fun p k => x0 (ix4 b s p k)) (x1 (ix2 b s)) (fun k => x2 (ix2 k d')) (x3 (ix1 d'))) := by
    rw [val_main_v24_apply, val_main_v22_apply, i22, val_main_v21_apply, val_main_v23_apply, val_main_cst_2_apply,
      val_main_cst_1_apply]
    simp only [i21, pooled_apply]
    unfold rowMean
    simp only [Ideal.ofBits_def, Ideal.ofBits_zero_f32, zero_add]
    rfl
  have var : val_main_v31 (F := Ideal) x0 x1 x2 x3 (ix3 b s (0 : Fin 1))
      = rowVar (fun d' => pooledSlots (fun p k => x0 (ix4 b s p k)) (x1 (ix2 b s)) (fun k => x2 (ix2 k d')) (x3 (ix1 d'))) := by
    rw [val_main_v31_apply, val_main_v29_apply, i29, val_main_v28_apply, val_main_v30_apply, val_main_cst_4_apply,
      val_main_cst_3_apply]
    simp only [i28, val_main_v27_apply, val_main_v26_apply, val_main_v25_apply, i25, mean, pooled_apply]
    unfold rowVar
    simp only [Ideal.ofBits_def, Ideal.ofBits_zero_f32, zero_add]
    rfl
  rw [val_main_v44_apply, val_main_v41_apply, val_main_v38_apply, val_main_v33_apply, val_main_v32_apply, i32, mean,
    pooled_apply, val_main_v37_apply, i37, val_main_v36_apply, val_main_v35_apply, var, val_main_v34_apply,
    val_main_cst_5_apply, val_main_v40_apply, i40, val_main_v39_apply, i39, val_main_v43_apply, i43, val_main_v42_apply, i42]
  rfl

end Cert.ReferenceIdeal.Hand

end
-- ==== Proof.LibFiniteSums.lean ====
import Mathlib
import Idealize.ShloMosaic.PureOps.Ideal

/-!
# Real-valued extended reals: closure under the arithmetic of a normalisation layer, and the variance identity

An extended real is *real* when it is the image of a real number. Real extended reals are closed under
sums, differences, products, finite sums, the maximum with zero, division by a nonzero real, and the
reciprocal square root of a positive number. On real data the two textbook forms of the (biased) variance
agree: the mean of the squared deviations equals the mean of the squares minus the square of the mean, and
since the former is nonnegative, clamping the latter at zero changes nothing.
-/

noncomputable section

open scoped BigOperators

namespace Idealize.ShloMosaic.FiniteSums

open Idealize.ShloMosaic

/-- An extended real that is (the image of) a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal 0 := ⟨0, rfl⟩

/-- One is real. -/
theorem isReal_one : IsReal 1 := ⟨1, rfl⟩

/-- An extended real is real exactly when it is neither +∞ nor -∞. -/
theorem isReal_iff (x : EReal) : IsReal x ↔ x ≠ ⊤ ∧ x ≠ ⊥ := by
  induction x using EReal.rec with
  | bot => exact ⟨fun ⟨r, h⟩ => absurd h (EReal.coe_ne_bot r).symm, fun h => absurd rfl h.2⟩
  | top => exact ⟨fun ⟨r, h⟩ => absurd h (EReal.coe_ne_top r).symm, fun h => absurd rfl h.1⟩
  | coe r => exact ⟨fun _ => ⟨EReal.coe_ne_top r, EReal.coe_ne_bot r⟩, fun _ => ⟨r, rfl⟩⟩

/-- A real extended real is not +∞. -/
theorem IsReal.ne_top {x : EReal} (h : IsReal x) : x ≠ ⊤ := ((isReal_iff x).1 h).1

/-- A real extended real is not -∞. -/
theorem IsReal.ne_bot {x : EReal} (h : IsReal x) : x ≠ ⊥ := ((isReal_iff x).1 h).2

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a real is real. -/
theorem IsReal.neg {x : EReal} (hx : IsReal x) : IsReal (-x) := by
  obtain ⟨a, rfl⟩ := hx; exact ⟨-a, (EReal.coe_neg a).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum of two reals is real. -/
theorem isReal_max {x y : EReal} (hx : IsReal x) (hy : IsReal y) : IsReal (max x y) := by
  rcases max_choice x y with h | h <;> rw [h] <;> assumption

/-- The maximum of a real with zero is real. -/
theorem isReal_max_zero {x : EReal} (hx : IsReal x) : IsReal (max x 0) := isReal_max hx isReal_zero

/-- The maximum with zero is nonnegative. -/
theorem zero_le_max_zero (x : EReal) : 0 ≤ max x 0 := le_max_right x 0

/-- The coercion of the reals into the extended reals commutes with finite sums. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A sum of reals over a whole finite index type is real. -/
theorem IsReal.sum_univ {ι : Type*} [Fintype ι] (f : ι → EReal) (hf : ∀ i, IsReal (f i)) :
    IsReal (∑ i, f i) := IsReal.sum Finset.univ f fun i _ => hf i

/-- A family of real extended reals is the image of a family of real numbers. -/
theorem exists_real_family {ι : Type*} (f : ι → EReal) (hf : ∀ i, IsReal (f i)) :
    ∃ g : ι → ℝ, ∀ i, f i = ((g i : ℝ) : EReal) := ⟨fun i => (hf i).choose, fun i => (hf i).choose_spec⟩

/-- The quotient of a real number by a nonzero real number, as the programs' division computes it on
    extended reals, is the real quotient. -/
theorem div_coe_coe (a N : ℝ) (hN : N ≠ 0) : Ideal.div (a : EReal) (N : EReal) = ((a / N : ℝ) : EReal) := by
  rw [Ideal.div_coe hN, ← EReal.coe_mul, mul_one_div]

/-- A real divided by a nonzero real number is real. -/
theorem IsReal.div_coe {x : EReal} (hx : IsReal x) {N : ℝ} (hN : N ≠ 0) : IsReal (Ideal.div x (N : EReal)) := by
  obtain ⟨a, rfl⟩ := hx; exact ⟨a / N, div_coe_coe a N hN⟩

/-- A real divided by 25000 is real. -/
theorem IsReal.div_25000 {x : EReal} (hx : IsReal x) : IsReal (Ideal.div x ((25000 : ℝ) : EReal)) :=
  hx.div_coe (by norm_num)

/-- The reciprocal square root of a positive real number is the real number `(√r)⁻¹`, which is positive. -/
theorem rsqrt_coe_pos {r : ℝ} (hr : 0 < r) :
    Ideal.rsqrt (r : EReal) = (((Real.sqrt r)⁻¹ : ℝ) : EReal) ∧ 0 < (Real.sqrt r)⁻¹ := by
  refine ⟨?_, inv_pos.2 (Real.sqrt_pos.2 hr)⟩
  rw [Ideal.rsqrt_coe, if_neg (not_lt.2 hr.le), if_neg hr.ne']

/-- The reciprocal square root of a positive real extended real is real and positive. -/
theorem IsReal.rsqrt_pos {x : EReal} (hx : IsReal x) (h : 0 < x) :
    IsReal (Ideal.rsqrt x) ∧ 0 < Ideal.rsqrt x := by
  obtain ⟨r, rfl⟩ := hx
  have hr : 0 < r := by exact_mod_cast h
  obtain ⟨e, hp⟩ := rsqrt_coe_pos hr
  rw [e]
  exact ⟨⟨_, rfl⟩, by exact_mod_cast hp⟩

/-- A nonnegative real plus a positive real is a positive real: the argument of the reciprocal square root
    in a normalisation layer (a clamped variance plus a positive constant). -/
theorem IsReal.add_pos {x y : EReal} (hx : IsReal x) (hy : IsReal y) (h0 : 0 ≤ x) (h1 : 0 < y) :
    IsReal (x + y) ∧ 0 < x + y := by
  refine ⟨hx.add hy, ?_⟩
  obtain ⟨a, rfl⟩ := hx; obtain ⟨b, rfl⟩ := hy
  have ha : 0 ≤ a := by exact_mod_cast h0
  have hb : 0 < b := by exact_mod_cast h1
  rw [← EReal.coe_add]
  exact_mod_cast add_pos_of_nonneg_of_pos ha hb

/-! ## The variance identity -/

/-- Over the real numbers: with `N` the number of terms and `m` the mean, the mean of the squared deviations
    from `m` is the mean of the squares minus `m²`. -/
theorem real_variance {ι : Type*} [Fintype ι] (g : ι → ℝ) (N : ℝ) (hN : (Fintype.card ι : ℝ) = N) (h0 : N ≠ 0) :
    (∑ i, (g i - (∑ j, g j) / N) * (g i - (∑ j, g j) / N)) / N
      = (∑ i, g i * g i) / N - ((∑ j, g j) / N) * ((∑ j, g j) / N) := by
  have h1 : ∑ i, (g i - (∑ j, g j) / N) * (g i - (∑ j, g j) / N)
      = (∑ i, g i * g i) - 2 * ((∑ j, g j) / N) * (∑ j, g j) + N * ((∑ j, g j) / N * ((∑ j, g j) / N)) := by
    have e : ∀ i, (g i - (∑ j, g j) / N) * (g i - (∑ j, g j) / N)
        = g i * g i - 2 * ((∑ j, g j) / N) * g i + ((∑ j, g j) / N * ((∑ j, g j) / N)) := fun i => by ring
    simp only [e, Finset.sum_add_distrib, Finset.sum_sub_distrib, ← Finset.mul_sum, Finset.sum_const,
      Finset.card_univ, nsmul_eq_mul, hN]
    ring
  rw [h1]
  field_simp
  ring

/-- Over the real numbers the mean of the squared deviations is nonnegative. -/
theorem real_variance_nonneg {ι : Type*} [Fintype ι] (g : ι → ℝ) (m N : ℝ) (hN : (Fintype.card ι : ℝ) = N) :
    0 ≤ (∑ i, (g i - m) * (g i - m)) / N :=
  div_nonneg (Finset.sum_nonneg fun i _ => mul_self_nonneg _) (hN ▸ Nat.cast_nonneg _)

/-- **The variance identity on real data, in extended-real arithmetic.** For a family `f` of real extended
    reals over a finite index type with `N` elements (`N ≠ 0`), with the mean `μ = (∑ f) / N`: the mean of
    the squared deviations from `μ` equals the mean of the squares minus `μ²`, clamped below at zero. Every
    division is the programs' division of extended reals by the real number `N`. -/
theorem variance_identity {ι : Type*} [Fintype ι] (f : ι → EReal) (hf : ∀ i, IsReal (f i))
    (N : ℝ) (hN : (Fintype.card ι : ℝ) = N) (h0 : N ≠ 0) :
    Ideal.div (∑ i, (f i - Ideal.div (∑ j, f j) (N : EReal)) * (f i - Ideal.div (∑ j, f j) (N : EReal))) (N : EReal)
      = max (Ideal.div (∑ i, f i * f i) (N : EReal)
              - Ideal.div (∑ j, f j) (N : EReal) * Ideal.div (∑ j, f j) (N : EReal)) 0 := by
  obtain ⟨g, hg⟩ := exists_real_family f hf
  have hS : (∑ j, f j) = (((∑ j, g j : ℝ)) : EReal) := by
    rw [coe_finset_sum]; exact Finset.sum_congr rfl fun j _ => hg j
  have hμ : Ideal.div (∑ j, f j) (N : EReal) = (((∑ j, g j) / N : ℝ) : EReal) := by
    rw [hS, div_coe_coe _ _ h0]
  have hQ : (∑ i, f i * f i) = ((∑ i, g i * g i : ℝ) : EReal) := by
    rw [coe_finset_sum]; exact Finset.sum_congr rfl fun i _ => by rw [hg i, EReal.coe_mul]
  have hD : (∑ i, (f i - Ideal.div (∑ j, f j) (N : EReal)) * (f i - Ideal.div (∑ j, f j) (N : EReal)))
      = ((∑ i, (g i - (∑ j, g j) / N) * (g i - (∑ j, g j) / N) : ℝ) : EReal) := by
    rw [coe_finset_sum]
    exact Finset.sum_congr rfl fun i _ => by rw [hμ, hg i, ← EReal.coe_sub, ← EReal.coe_mul]
  rw [hD, hQ, hμ, div_coe_coe _ _ h0, div_coe_coe _ _ h0, ← EReal.coe_mul, ← EReal.coe_sub,
    real_variance g N hN h0]
  have hB : 0 ≤ (∑ i, g i * g i) / N - (∑ j, g j) / N * ((∑ j, g j) / N) :=
    (real_variance g N hN h0) ▸ real_variance_nonneg g _ N hN
  exact (max_eq_left (EReal.coe_nonneg.2 hB)).symm

/-- The variance identity over `Fin n`, `n > 0`, with `N = n` as a real number. -/
theorem variance_identity_fin {n : ℕ} (hn : 0 < n) (f : Fin n → EReal) (hf : ∀ i, IsReal (f i)) :
    Ideal.div (∑ i, (f i - Ideal.div (∑ j, f j) ((n : ℝ) : EReal)) * (f i - Ideal.div (∑ j, f j) ((n : ℝ) : EReal)))
        ((n : ℝ) : EReal)
      = max (Ideal.div (∑ i, f i * f i) ((n : ℝ) : EReal)
              - Ideal.div (∑ j, f j) ((n : ℝ) : EReal) * Ideal.div (∑ j, f j) ((n : ℝ) : EReal)) 0 :=
  variance_identity f hf (n : ℝ) (by simp) (by exact_mod_cast hn.ne')

end Idealize.ShloMosaic.FiniteSums
-- ==== Proof.PoolLaw.lean ====
/-
  Pooling before the projection equals pooling after it, on real data with at most eight valid slots.

  With real slot vectors `x p`, a real matrix column `W`, a real bias `b`, weights `w p ∈ {0, 1}` (`w p = 1` exactly
  when `p < n`) and `M = max n 1`:

      Σ_k ((Σ_p x p k · w p) · (1 / M)) · W k  +  w 0 · b   =   (Σ_p ((Σ_k x p k · W k) + b) · w p) / M .

  The matrix terms agree by exchanging the two finite sums (distributivity: this is where finiteness is needed). The
  bias terms agree because `(Σ_p w p) / M = w 0`: for `n ≤ 0` both are 0, and for `1 ≤ n ≤ 8` the number of kept
  slots is `n = M` and `w 0 = 1`. For `n > 8` this fails (eight kept slots over `n`), which is why the count is
  assumed to be at most eight.
-/
import proofs.«171324_j52931176956032_2_alg».proof.Proof.PoolSpec
import proofs.«171324_j52931176956032_2_alg».proof.Proof.LibFiniteSums

noncomputable section

open scoped BigOperators

namespace Cert.ParamPool

open Idealize.ShloMosaic Idealize.ShloMosaic.FiniteSums

/-! ## The float literals 0 … 7 -/

theorem lit0 : Ideal.ofBits .f32 0x00000000#32 = ((0 : ℝ) : EReal) := by
  simp [Ideal.ofBits, Ideal.ieee]
theorem lit1 : Ideal.ofBits .f32 0x3F800000#32 = ((1 : ℝ) : EReal) := by
  simp [Ideal.ofBits, Ideal.ieee, -EReal.coe_mul]; norm_num
theorem lit2 : Ideal.ofBits .f32 0x40000000#32 = ((2 : ℝ) : EReal) := by
  simp [Ideal.ofBits, Ideal.ieee, -EReal.coe_mul]; norm_num
theorem lit3 : Ideal.ofBits .f32 0x40400000#32 = ((3 : ℝ) : EReal) := by
  simp [Ideal.ofBits, Ideal.ieee, -EReal.coe_mul]; norm_num
theorem lit4 : Ideal.ofBits .f32 0x40800000#32 = ((4 : ℝ) : EReal) := by
  simp [Ideal.ofBits, Ideal.ieee, -EReal.coe_mul]; norm_num
theorem lit5 : Ideal.ofBits .f32 0x40A00000#32 = ((5 : ℝ) : EReal) := by
  simp [Ideal.ofBits, Ideal.ieee, -EReal.coe_mul]; norm_num
theorem lit6 : Ideal.ofBits .f32 0x40C00000#32 = ((6 : ℝ) : EReal) := by
  simp [Ideal.ofBits, Ideal.ieee, -EReal.coe_mul]; norm_num
theorem lit7 : Ideal.ofBits .f32 0x40E00000#32 = ((7 : ℝ) : EReal) := by
  simp [Ideal.ofBits, Ideal.ieee, -EReal.coe_mul]; norm_num

/-! ## The weights -/

/-- Slot `p` is kept at a count with signed value `z`: the real 1 or 0. -/
def keep (p : ℕ) (z : ℤ) : ℝ := if (p : ℤ) < z then 1 else 0

/-- The float-compared weight against the literal of the number `p` is `keep p`. -/
theorem gate_eq (lit : BitVec 32) (p : ℕ) (hl : Ideal.ofBits .f32 lit = (((p : ℕ) : ℝ) : EReal)) (n : BitVec 32) :
    gate lit n = ((keep p n.toInt : ℝ) : EReal) := by
  unfold gate count keep
  rw [hl]
  have one : (((1#1 : BitVec 1).setWidth 32).toInt : ℝ) = 1 := by
    have : ((1#1 : BitVec 1).setWidth 32).toInt = 1 := by decide
    rw [this]; norm_num
  have zero : (((0#1 : BitVec 1).setWidth 32).toInt : ℝ) = 0 := by
    have : ((0#1 : BitVec 1).setWidth 32).toInt = 0 := by decide
    rw [this]; norm_num
  by_cases h : (p : ℤ) < n.toInt
  · have h' : (((p : ℕ) : ℝ) : EReal) < (((n.toInt : ℤ) : ℝ) : EReal) := by
      rw [EReal.coe_lt_coe_iff]; exact_mod_cast h
    have hc : Ideal.cmp .ogt (((n.toInt : ℤ) : ℝ) : EReal) (((p : ℕ) : ℝ) : EReal) = 1#1 := by
      show BitVec.ofBool (decide (_ < _)) = _
      rw [decide_eq_true h']; rfl
    rw [hc, if_pos h, one]
  · have h' : ¬ (((p : ℕ) : ℝ) : EReal) < (((n.toInt : ℤ) : ℝ) : EReal) := by
      rw [EReal.coe_lt_coe_iff]; intro hh; exact h (by exact_mod_cast hh)
    have hc : Ideal.cmp .ogt (((n.toInt : ℤ) : ℝ) : EReal) (((p : ℕ) : ℝ) : EReal) = 0#1 := by
      show BitVec.ofBool (decide (_ < _)) = _
      rw [decide_eq_false h']; rfl
    rw [hc, if_neg h, zero]

/-- The word-compared weight of slot `p` is `keep p`. -/
theorem slot_eq (p : Fin 8) (n : BitVec 32) : slot p n = ((keep p.val n.toInt : ℝ) : EReal) := by
  unfold slot keep IntOp.cmpi
  have hp : (BitVec.ofNat 32 p.val).toInt = (p.val : ℤ) := by
    have := p.isLt
    rw [BitVec.toInt_eq_toNat_cond, BitVec.toNat_ofNat, Nat.mod_eq_of_lt (by omega), if_pos (by omega)]
  have hs : (BitVec.ofNat 32 p.val).slt n = decide ((p.val : ℤ) < n.toInt) := by
    rw [BitVec.slt, hp]
  simp only [hs]
  by_cases h : (p.val : ℤ) < n.toInt
  · simp [h]
  · simp [h]

/-- The divisor is the real `max n 1`, which is at least 1. -/
theorem denom_eq (n : BitVec 32) : denom n = ((max (n.toInt : ℝ) 1 : ℝ) : EReal) := by
  unfold denom count
  rw [lit1, ← Monotone.map_max EReal.coe_strictMono.monotone]

/-- For a count of at most eight, the kept slots' number over `max n 1` is the first slot's weight. -/
theorem keep_sum_div (z : ℤ) (hz : z ≤ 8) : (∑ p : Fin 8, keep p.val z) / max (z : ℝ) 1 = keep 0 z := by
  rw [Fin.sum_univ_eight]
  show (keep 0 z + keep 1 z + keep 2 z + keep 3 z + keep 4 z + keep 5 z + keep 6 z + keep 7 z) / max (z : ℝ) 1 = keep 0 z
  by_cases h0 : z ≤ 0
  · have e : ∀ p : ℕ, keep p z = 0 := fun p => by unfold keep; rw [if_neg]; omega
    simp only [e]; norm_num
  · have h1 : 1 ≤ z := by omega
    interval_cases z <;> (unfold keep; norm_num)

/-! ## The law over the reals -/

/-- The two arrangements over the reals, given the bias identity `(Σ_p w p) / M = w 0`. -/
theorem real_law (x : Fin 8 → Fin 768 → ℝ) (W : Fin 768 → ℝ) (b M : ℝ) (w : Fin 8 → ℝ)
    (hw : (∑ p : Fin 8, w p) / M = w 0) :
    (∑ k : Fin 768, ((0 + x 0 k * w 0 + x 1 k * w 1 + x 2 k * w 2 + x 3 k * w 3 + x 4 k * w 4 + x 5 k * w 5
        + x 6 k * w 6 + x 7 k * w 7) * (1 / M)) * W k) + w 0 * b
      = (∑ p : Fin 8, ((∑ k : Fin 768, x p k * W k) + b) * w p) / M := by
  have e1 : ∀ k : Fin 768, (0 + x 0 k * w 0 + x 1 k * w 1 + x 2 k * w 2 + x 3 k * w 3 + x 4 k * w 4 + x 5 k * w 5
        + x 6 k * w 6 + x 7 k * w 7) = ∑ p : Fin 8, x p k * w p := fun k => by
    rw [Fin.sum_univ_eight]; ring
  simp only [e1]
  have e2 : (∑ k : Fin 768, ((∑ p : Fin 8, x p k * w p) * (1 / M)) * W k)
      = (∑ p : Fin 8, (∑ k : Fin 768, x p k * W k) * w p) / M := by
    simp only [Finset.sum_mul, Finset.sum_div]
    rw [Finset.sum_comm]
    refine Finset.sum_congr rfl fun p _ => Finset.sum_congr rfl fun k _ => ?_
    ring
  have e3 : (∑ p : Fin 8, ((∑ k : Fin 768, x p k * W k) + b) * w p) / M
      = (∑ p : Fin 8, (∑ k : Fin 768, x p k * W k) * w p) / M + b * ((∑ p : Fin 8, w p) / M) := by
    simp only [add_mul, Finset.sum_add_distrib, ← Finset.mul_sum, add_div, mul_div_assoc]
  rw [e2, e3, hw]
  ring

/-! ## The law on extended reals with real entries -/

/-- **Pool-then-project is project-then-pool** on real data, for a count of at most eight. -/
theorem pooled_eq (x : Fin 8 → Fin 768 → EReal) (n : BitVec 32) (W : Fin 768 → EReal) (bias : EReal)
    (hx : ∀ p k, IsReal (x p k)) (hW : ∀ k, IsReal (W k)) (hb : IsReal bias) (hn : n.toInt ≤ 8) :
    pooledFused x n W bias = pooledSlots x n W bias := by
  obtain ⟨xr, hxr⟩ : ∃ g : Fin 8 → Fin 768 → ℝ, ∀ p k, x p k = ((g p k : ℝ) : EReal) :=
    ⟨fun p k => (hx p k).choose, fun p k => (hx p k).choose_spec⟩
  obtain ⟨Wr, hWr⟩ := exists_real_family W hW
  obtain ⟨br, rfl⟩ := hb
  have hM : max (n.toInt : ℝ) 1 ≠ 0 := by
    have : (1 : ℝ) ≤ max (n.toInt : ℝ) 1 := le_max_right _ _
    intro h; rw [h] at this; norm_num at this
  have g0 := gate_eq 0x00000000#32 0 (by rw [lit0]; norm_num) n
  have g1 := gate_eq 0x3F800000#32 1 (by rw [lit1]; norm_num) n
  have g2 := gate_eq 0x40000000#32 2 (by rw [lit2]; norm_num) n
  have g3 := gate_eq 0x40400000#32 3 (by rw [lit3]; norm_num) n
  have g4 := gate_eq 0x40800000#32 4 (by rw [lit4]; norm_num) n
  have g5 := gate_eq 0x40A00000#32 5 (by rw [lit5]; norm_num) n
  have g6 := gate_eq 0x40C00000#32 6 (by rw [lit6]; norm_num) n
  have g7 := gate_eq 0x40E00000#32 7 (by rw [lit7]; norm_num) n
  have hl : pooledFused x n W ((br : ℝ) : EReal)
      = (((∑ k : Fin 768, ((0 + xr 0 k * keep 0 n.toInt + xr 1 k * keep 1 n.toInt + xr 2 k * keep 2 n.toInt
          + xr 3 k * keep 3 n.toInt + xr 4 k * keep 4 n.toInt + xr 5 k * keep 5 n.toInt
          + xr 6 k * keep 6 n.toInt + xr 7 k * keep 7 n.toInt) * (1 / max (n.toInt : ℝ) 1)) * Wr k)
          + keep 0 n.toInt * br : ℝ) : EReal) := by
    unfold pooledFused maskedSum
    rw [denom_eq, lit1, div_coe_coe _ _ hM, g0, g1, g2, g3, g4, g5, g6, g7, lit0]
    simp only [hxr, hWr, ← EReal.coe_mul, ← EReal.coe_add, ← coe_finset_sum]
  have hr : pooledSlots x n W ((br : ℝ) : EReal)
      = (((∑ p : Fin 8, ((∑ k : Fin 768, xr p k * Wr k) + br) * keep p.val n.toInt) / max (n.toInt : ℝ) 1 : ℝ) : EReal) := by
    unfold pooledSlots
    rw [denom_eq]
    simp only [hxr, hWr, slot_eq, ← EReal.coe_mul, ← EReal.coe_add, ← coe_finset_sum]
    rw [div_coe_coe _ _ hM]
  rw [hl, hr]
  refine congrArg _ ?_
  exact real_law xr Wr br _ (fun p => keep p.val n.toInt) (keep_sum_div n.toInt hn)

end Cert.ParamPool

end
-- ==== Proof.LibFiniteEntry.lean ====
import Idealize.ShloMosaic.Lib.ReduceAll
import Idealize.ShloMosaic.Lib.ValueIdx
import Idealize.ShloMosaic.PureOps.Ideal

/-!
# A finiteness test read back at one entry

A test "every entry of `x` has absolute value below +∞" is the conjunction, over all indices, of the
one-bit comparisons `|x i| < +∞`. When the conjunction is 1, every comparison is 1, and an extended real
whose absolute value is strictly below +∞ is neither +∞ nor -∞: it is a real number.
-/

noncomputable section

namespace Idealize.ShloMosaic.FiniteEntry

open Idealize.ShloMosaic Idealize.ShloMosaic.ValueIdx

/-- The f32 word `0x7F800000` denotes +∞. -/
theorem ofBits_inf : Ideal.ofBits .f32 0x7F800000#32 = (⊤ : EReal) := by
  simp [Ideal.ofBits, Ideal.ieee]

/-- An extended real `x` with `max x (-x) < +∞` (as a one-bit comparison equal to 1) is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | top => exact absurd h (by simp [Ideal.cmp])
  | coe r => exact ⟨r, rfl⟩

instance : Subsingleton (⟨0, ![]⟩ : Shape).Idx := ⟨fun a b => funext fun d => d.elim0⟩

/-- The test `all (|x| < +∞)` over an array `x` of any shape `s`: if the reduction by `and` of the
    comparisons of `|x|` against the broadcast word of +∞ is 1, then every entry of `x` is a real number. -/
theorem real_of_all_abs_lt_inf {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) :=
  real_of_abs_lt_inf (x i) (Host.reduce_andi_all _ _ hr hu ix0 e i)

end Idealize.ShloMosaic.FiniteEntry
-- ==== Proof.PreFacts.lean ====
/-
  What the precondition says, entry by entry: the slot vectors, the matrix and the bias are arrays of real numbers
  (each passes the test `|x| < +∞` everywhere), and every count is at most eight (each passes `n ≤ 8`, a signed
  comparison of words). The tests on the scale and the shift are part of the precondition too but are not needed.
-/
import proofs.«171324_j52931176956032_2_alg».proof.Pre_finite_inputs
import proofs.«171324_j52931176956032_2_alg».proof.Proof.Gen.Pre_finite_inputs
import proofs.«171324_j52931176956032_2_alg».proof.Proof.LibFiniteEntry
import Idealize.ShloMosaic.Lib.Affine
import Idealize.ShloMosaic.Lib.ReduceAll
import Idealize.ShloMosaic.Lib.Pipeline.Value

noncomputable section

namespace Cert.Pre_finite_inputs.Hand

open Cert.Pre_finite_inputs Idealize.ShloMosaic Idealize.ShloMosaic.ValueIdx Idealize.ShloMosaic.FiniteEntry

/-- From the precondition's one bit to its entrywise content. -/
theorem entries_of_pre (a0 : FVec Ideal S8x512x8x768 .f32) (a1 : IVec S8x512 32) (a2 : FVec Ideal S768x1024 .f32)
    (a3 a4 a5 : FVec Ideal S1024 .f32)
    (h : Cert.Pre_finite_inputs.fn (F := Ideal) a0 a1 a2 a3 a4 a5 = fun _ => 1#1) :
    (∀ i, ∃ r : ℝ, a0 i = (r : EReal)) ∧ (∀ i, (a1 i).toInt ≤ 8) ∧ (∀ i, ∃ r : ℝ, a2 i = (r : EReal))
      ∧ (∀ i, ∃ r : ℝ, a3 i = (r : EReal)) := by
  have h0 := congrFun h ix0
  unfold Cert.Pre_finite_inputs.fn Cert.Pre_finite_inputs.fn_part1 at h0
  dsimp only at h0
  obtain ⟨h1, hn⟩ := IntOp.andi_eq_one.1 h0
  obtain ⟨h2, -⟩ := IntOp.andi_eq_one.1 h1
  obtain ⟨h3, -⟩ := IntOp.andi_eq_one.1 h2
  obtain ⟨h4, hb⟩ := IntOp.andi_eq_one.1 h3
  obtain ⟨hx, hw⟩ := IntOp.andi_eq_one.1 h4
  refine ⟨real_of_all_abs_lt_inf a0 _ _ _ hx, fun i => ?_, real_of_all_abs_lt_inf a2 _ _ _ hw,
    real_of_all_abs_lt_inf a3 _ _ _ hb⟩
  have e := Host.reduce_andi_all _ _ _ _ ix0 hn i
  have e8 : (broadcastInDim S8x512 ![] Facts.bcast_S_S8x512 (constantI S_ 32 8#32) : IVec S8x512 32) i = 8#32 :=
    broadcastInDim_apply _ _ _ i ix0 fun ax => ax.elim0
  have e' : IntOp.cmpi .sle (a1 i) 8#32 = 1#1 := by rw [← e8]; exact e
  have := IntOp.cmpi_sle.1 e'
  have h8 : (8#32 : BitVec 32).toInt = 8 := by decide
  omega

end Cert.Pre_finite_inputs.Hand

end
-- ==== Proof.lean ====
/-
  The five claims for the parameter encoder: eight parameter slots per position, a signed count of valid slots,
  one linear projection, a masked mean over the slots, and a layer normalisation.

  The fused program pools the kept slot vectors BEFORE the projection (one 768 → 1024 product per position instead of
  eight) and adds the bias only where some slot is kept; the reference projects every slot, adds the bias to each,
  masks, sums and divides by `max count 1`. Over the extended reals the two agree when the slot vectors, the matrix
  and the bias are real (the sums may then be exchanged) and the count is at most eight, the number of slots there
  are (the kept slots then number `count`, so the bias is weighted by `count / max count 1`, which is 1 when some
  slot is kept and 0 otherwise). For a count above eight the reference weights the bias by `8 / count` and the two
  differ: that bound is part of the precondition. The normalisation after the pooling is the same computation on both
  sides.

  The three frames are the generated frame runs (the reference's with its result dropped); nothing was rewritten
  between the word-level and the idealized fused program, so `preserves` is trivial; `algebraic` puts the fused
  program's run (its result array read block by block, then through the reshapes) beside the reference's run (read
  operation by operation) and joins them by the pooling law.
-/
import proofs.«171324_j52931176956032_2_alg».proof.Defs
import proofs.«171324_j52931176956032_2_alg».proof.Proof.Gen.Kernel
import proofs.«171324_j52931176956032_2_alg».proof.Proof.Gen.Kernel.Frame
import proofs.«171324_j52931176956032_2_alg».proof.Proof.Gen.KernelIdeal
import proofs.«171324_j52931176956032_2_alg».proof.Proof.Gen.KernelIdeal.Frame
import proofs.«171324_j52931176956032_2_alg».proof.Proof.Gen.ReferenceIdeal
import proofs.«171324_j52931176956032_2_alg».proof.Proof.Gen.ReferenceIdeal.Run
import proofs.«171324_j52931176956032_2_alg».proof.Proof.Gen.ReferenceIdeal.Read
import proofs.«171324_j52931176956032_2_alg».proof.Proof.Gen.Pre_finite_inputs
import proofs.«171324_j52931176956032_2_alg».proof.Proof.KernelArray
import proofs.«171324_j52931176956032_2_alg».proof.Proof.RefValue
import proofs.«171324_j52931176956032_2_alg».proof.Proof.PoolLaw
import proofs.«171324_j52931176956032_2_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx
open Cert.ParamPool Idealize.ShloMosaic.FiniteSums

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On arguments satisfying the precondition the reference's result is the fused program's: entry by entry the
    normalisation of two pooled rows that the pooling law identifies. -/
theorem reference_eq_result (A0 : Vec Ideal Cert.KernelIdeal.S8x512x8x768 .f32) (A1 : Vec Ideal Cert.KernelIdeal.S8x512 .i32)
    (A2 : Vec Ideal Cert.KernelIdeal.S768x1024 .f32) (A3 A4 A5 : Vec Ideal Cert.KernelIdeal.S1024 .f32)
    (hpre : Cert.Pre_finite_inputs.fn (F := Ideal) A0 A1 A2 A3 A4 A5 = fun _ => 1#1) :
    Cert.ReferenceIdeal.Read.val_main_v44 (F := Ideal) A0 A1 A2 A3 A4 A5 = Cert.KernelIdeal.Hand.result A0 A1 A2 A3 A4 A5 := by
  obtain ⟨h0, h1, h2, h3⟩ := Cert.Pre_finite_inputs.Hand.entries_of_pre A0 A1 A2 A3 A4 A5 hpre
  funext i
  obtain ⟨b, s, d, rfl⟩ : ∃ (b : Fin 8) (s : Fin 512) (d : Fin 1024), i = ix3 b s d := ⟨i 0, i 1, i 2, eq_ix3 i⟩
  rw [Cert.ReferenceIdeal.Hand.ref_apply]
  show _ = layerNorm (fun d' => pooledFused (fun p k => A0 (ix4 b s p k)) (A1 (ix2 b s)) (fun k => A2 (ix2 k d')) (A3 (ix1 d')))
    (fun d' => A4 (ix1 d')) (fun d' => A5 (ix1 d')) d
  refine congrArg (fun e => layerNorm e _ _ d) (funext fun d' => ?_)
  exact (pooled_eq _ _ _ _ (fun p k => h0 _) (fun k => h2 _) (h3 _) (h1 _)).symm

theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2.1, (hagree c).2.2.1, (hagree c).2.2.2.1,
    (hagree c).2.2.2.2.1, (hagree c).2.2.2.2.2]
  exact reference_eq_result _ _ _ _ _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
